-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S4x128x64 : Shape := ⟨3, ![4, 128, 64]⟩
abbrev S4x64 : Shape := ⟨2, ![4, 64]⟩
abbrev S4x64x64 : Shape := ⟨3, ![4, 64, 64]⟩
abbrev S4x64x1 : Shape := ⟨3, ![4, 64, 1]⟩
abbrev S4x1 : Shape := ⟨2, ![4, 1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64x1 : S_.BroadcastsInDim S4x64x1 (![] : Fin 0 → Fin S4x64x1.rank)
  reducesTo_S4x64x1_S_d0_1_2 : S4x64x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg5 : FVec F S4x64 .f32) (main_arg6 : FVec F S4x64x1 .f32) (main_arg7 : FVec F S4x1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64x1 .f32 := Host.absf main_arg6
  let main_cst_8 : FVec F S_ .f32 := constant S_ .f32 0x7F800000#32
  let main_v25 : FVec F S4x64x1 .f32 := broadcastInDim S4x64x1 ![] bcast_S_S4x64x1 main_cst_8
  let main_v26 : IVec S4x64x1 1 := cmpf .olt main_v24 main_v25
  let main_c_9 : IVec S_ 1 := constantI S_ 1 1#1
  let main_v27 : IVec S_ 1 := (fun x v => Host.reduce IntOp.andi x v reducesTo_S4x64x1_S_d0_1_2 h_S_) main_v26 main_c_9
  let main_v28 : IVec S_ 1 := andi main_v23 main_v27
  let main_v29 : FVec F S4x1 .f32 := Host.absf main_arg7
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  main_v33

def fn {F : FTy → Type} [FloatOps F] (main_arg0 : FVec F S1000000x128 .f32) (main_arg1 : IVec S1000000 32) (main_arg2 : FVec F S4x128x64 .f32) (main_arg3 : FVec F S4x64 .f32) (main_arg4 : FVec F S4x64x64 .f32) (main_arg5 : FVec F S4x64 .f32) (main_arg6 : FVec F S4x64x1 .f32) (main_arg7 : FVec F S4x1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S4x128x64 .f32 := Host.absf main_arg2
  let main_cst_0 : FVec F S_ .f32 := constant S_ .f32 0x7F800000#32
  let main_v5 : FVec F S4x128x64 .f32 := broadcastInDim S4x128x64 ![] bcast_S_S4x128x64 main_cst_0
  let main_v6 : IVec S4x128x64 1 := cmpf .olt main_v4 main_v5
  let main_c_1 : IVec S_ 1 := constantI S_ 1 1#1
  let main_v7 : IVec S_ 1 := (fun x v => Host.reduce IntOp.andi x v reducesTo_S4x128x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_v13 main_v16
-- ==== Kernel.lean ====
abbrev S1000000x128 : Shape := ⟨2, ![1000000, 128]⟩
abbrev S1000000 : Shape := ⟨1, ![1000000]⟩
abbrev S4x128x64 : Shape := ⟨3, ![4, 128, 64]⟩
abbrev S4x64 : Shape := ⟨2, ![4, 64]⟩
abbrev S4x64x64 : Shape := ⟨3, ![4, 64, 64]⟩
abbrev S4x64x1 : Shape := ⟨3, ![4, 64, 1]⟩
abbrev S4x1 : Shape := ⟨2, ![4, 1]⟩
abbrev S_ : Shape := ⟨0, ![]⟩
abbrev S1003520x128 : Shape := ⟨2, ![1003520, 128]⟩
abbrev S1003520 : Shape := ⟨1, ![1003520]⟩
abbrev S1003520x1 : Shape := ⟨2, ![1003520, 1]⟩
abbrev S128x4x64 : Shape := ⟨3, ![128, 4, 64]⟩
abbrev S128x256 : Shape := ⟨2, ![128, 256]⟩
abbrev S256 : Shape := ⟨1, ![256]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S256x4 : Shape := ⟨2, ![256, 4]⟩
abbrev S1x64x1 : Shape := ⟨3, ![1, 64, 1]⟩
abbrev S64 : Shape := ⟨1, ![64]⟩
abbrev S4 : Shape := ⟨1, ![4]⟩
abbrev S4096x128 : Shape := ⟨2, ![4096, 128]⟩
abbrev S4096x1 : Shape := ⟨2, ![4096, 1]⟩
abbrev S4096x256 : Shape := ⟨2, ![4096, 256]⟩
abbrev S1x256 : Shape := ⟨2, ![1, 256]⟩
abbrev S4096x4 : Shape := ⟨2, ![4096, 4]⟩
abbrev S1x4 : Shape := ⟨2, ![1, 4]⟩
abbrev S4096 : Shape := ⟨1, ![4096]⟩

abbrev nBuf : Space → Nat
  | .hbm => 94
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S4x128x64, .f32⟩
  | .hbm, ⟨3, _⟩ => ⟨S4x64, .f32⟩
  | .hbm, ⟨4, _⟩ => ⟨S4x64x64, .f32⟩
  | .hbm, ⟨5, _⟩ => ⟨S4x64, .f32⟩
  | .hbm, ⟨6, _⟩ => ⟨S4x64x1, .f32⟩
  | .hbm, ⟨7, _⟩ => ⟨S4x1, .f32⟩
  | .hbm, ⟨8, _⟩ => ⟨S_, .i32⟩
  | .hbm, ⟨9, _⟩ => ⟨S_, .f32⟩
  | .hbm, ⟨10, _⟩ => ⟨S1003520x128, .f32⟩
  | .hbm, ⟨11, _⟩ => ⟨S_, .i32⟩
  | .hbm, ⟨12, _⟩ => ⟨S_, .i32⟩
  | .hbm, ⟨13, _⟩ => ⟨S1003520, .i32⟩
  | .hbm, ⟨14, _⟩ => ⟨S1003520x1, .i32⟩
  | .hbm, ⟨15, _⟩ => ⟨S128x4x64, .f32⟩
  | .hbm, ⟨16, _⟩ => ⟨S128x256, .f32⟩
  | .hbm, ⟨17, _⟩ => ⟨S256, .f32⟩
  | .hbm, ⟨18, _⟩ => ⟨S_, .f32⟩
  | .hbm, ⟨19, _⟩ => ⟨S256x256, .f32⟩
  | .hbm, ⟨20, _⟩ => ⟨S1x64x64, .f32⟩
  | .hbm, ⟨21, _⟩ => ⟨S64x64, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S256x256, .f32⟩
  | .hbm, ⟨28, _⟩ => ⟨S1x64x64, .f32⟩
  | .hbm, ⟨29, _⟩ => ⟨S64x64, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S256x256, .f32⟩
  | .hbm, ⟨36, _⟩ => ⟨S1x64x64, .f32⟩
  | .hbm, ⟨37, _⟩ => ⟨S64x64, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S256x256, .f32⟩
  | .hbm, ⟨44, _⟩ => ⟨S1x64x64, .f32⟩
  | .hbm, ⟨45, _⟩ => ⟨S64x64, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S256x256, .f32⟩
  | .hbm, ⟨52, _⟩ => ⟨S256, .f32⟩
  | .hbm, ⟨53, _⟩ => ⟨S_, .f32⟩
  | .hbm, ⟨54, _⟩ => ⟨S256x4, .f32⟩
  | .hbm, ⟨55, _⟩ => ⟨S1x64x1, .f32⟩
  | .hbm, ⟨56, _⟩ => ⟨S64, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S256x4, .f32⟩
  | .hbm, ⟨63, _⟩ => ⟨S1x64x1, .f32⟩
  | .hbm, ⟨64, _⟩ => ⟨S64, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S256x4, .f32⟩
  | .hbm, ⟨71, _⟩ => ⟨S1x64x1, .f32⟩
  | .hbm, ⟨72, _⟩ => ⟨S64, .f32⟩
  | .hbm, ⟨73, _⟩ => ⟨S_, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S2, .i32⟩
  | .hbm, ⟨78, _⟩ => ⟨S256x4, .f32⟩
  | .hbm, ⟨79, _⟩ => ⟨S1x64x1, .f32⟩
  | .hbm, ⟨80, _⟩ => ⟨S64, .f32⟩
  | .hbm, ⟨81, _⟩ => ⟨S_, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S2, .i32⟩
  | .hbm, ⟨86, _⟩ => ⟨S256x4, .f32⟩
  | .hbm, ⟨87, _⟩ => ⟨S4, .f32⟩
  | .hbm, ⟨88, _⟩ => ⟨S128x256, .bf16⟩
  | .hbm, ⟨89, _⟩ => ⟨S256x256, .bf16⟩
  | .hbm, ⟨90, _⟩ => ⟨S256x4, .bf16⟩
  | .hbm, ⟨91, _⟩ => ⟨S1003520x1, .f32⟩
  | .hbm, ⟨92, _⟩ => ⟨S1003520, .f32⟩
  | .hbm, ⟨93, _⟩ => ⟨S1000000, .f32⟩
  | .local _ .vmem, ⟨0, _⟩ => ⟨S4096x128, .f32⟩
  | .local _ .vmem, ⟨1, _⟩ => ⟨S4096x128, .f32⟩
  | .local _ .vmem, ⟨2, _⟩ => ⟨S4096x1, .i32⟩
  | .local _ .vmem, ⟨3, _⟩ => ⟨S4096x1, .i32⟩
  | .local _ .vmem, ⟨4, _⟩ => ⟨S128x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x4, .bf16⟩
  | .local _ .vmem, ⟨9, _⟩ => ⟨S4, .f32⟩
  | .local _ .vmem, ⟨10, _⟩ => ⟨S4096x1, .f32⟩
  | .local _ .vmem, ⟨11, _⟩ => ⟨S4096x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_c_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_14 : Ref sig .tc := ⟨.hbm, 73, rfl⟩
abbrev main_v47 : Ref sig .tc := ⟨.hbm, 74, rfl⟩
abbrev main_c_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_16 : Ref sig .tc := ⟨.hbm, 81, rfl⟩
abbrev main_v53 : Ref sig .tc := ⟨.hbm, 82, rfl⟩
abbrev main_c_17 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S1000000x128_S1003520x128_035200_000 : S1000000x128.Pads (![0, 0] : Fin 2 → Nat) ![3520, 0] ![0, 0] S1003520x128
  h_S_ : 0 < S_.numel
  pads_S1000000_S1003520_035200 : S1000000.Pads (![0] : Fin 1 → Nat) ![3520] ![0] S1003520
  shapeCasts_S1003520_S1003520x1 : S1003520.ShapeCasts S1003520x1
  transposes_S4x128x64_S128x4x64_1_0_2 : S4x128x64.Transposes [1, 0, 2] S128x4x64
  shapeCasts_S128x4x64_S128x256 : S128x4x64.ShapeCasts S128x256
  shapeCasts_S4x64_S256 : S4x64.ShapeCasts S256
  bcast_S_S256x256 : S_.BroadcastsInDim S256x256 (![] : Fin 0 → Fin S256x256.rank)
  slices_S4x64x64_S1x64x64_0_0_0 : S4x64x64.Slices ![0, 0, 0] S1x64x64
  shapeCasts_S1x64x64_S64x64 : S1x64x64.ShapeCasts S64x64
  bcast_S_S1 : S_.BroadcastsInDim S1 (![] : Fin 0 → Fin S1.rank)
  concatenates_S1_S1_S2_d0 : Shape.Concatenates [S1, S1] S2 0
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S_S256x4 : S_.BroadcastsInDim S256x4 (![] : Fin 0 → Fin S256x4.rank)
  slices_S4x64x1_S1x64x1_0_0_0 : S4x64x1.Slices ![0, 0, 0] S1x64x1
  shapeCasts_S1x64x1_S64 : S1x64x1.ShapeCasts S64
  slices_S4x64x1_S1x64x1_1_0_0 : S4x64x1.Slices ![1, 0, 0] S1x64x1
  slices_S4x64x1_S1x64x1_2_0_0 : S4x64x1.Slices ![2, 0, 0] S1x64x1
  slices_S4x64x1_S1x64x1_3_0_0 : S4x64x1.Slices ![3, 0, 0] S1x64x1
  shapeCasts_S4x1_S4 : S4x1.ShapeCasts S4
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S4096x4 : S1x4.Broadcasts S4096x4
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x4_d1_w32 : S4096x4.Iotas .tc 32 [1]
  broadcasts_S4096x1_S4096x4 : S4096x1.Broadcasts S4096x4
  natLt_1_32 : 1 < 32
  reduces_S4096x4_S4096 : S4096x4.Reduces [1] S4096
  shapeCasts_S4096_S4096x1 : S4096.ShapeCasts S4096x1
  shapeCasts_S1003520x1_S1003520 : S1003520x1.ShapeCasts S1003520
  slices_S1003520_S1000000_0 : S1003520.Slices ![0] S1000000
  scatter_S256x256_S2_S64x64_01_n_01_0_wf : ScatterDims.WF S256x256 S2 S64x64 [0, 1] [] [0, 1] 0
  scatter_S256x4_S2_S64_0_1_01_0_wf : ScatterDims.WF S256x4 S2 S64 [0] [1] [0, 1] 0
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .f32 = 32 ∨ (Rect.block (s := S1003520x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1003520x1.size a
  hwx0_1 : ∀ i : grid0.Coords, EltTy.bits .i32 = 32 ∨ (Rect.block (s := S1003520x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x4.size a ≤ S256x4.size a
  hwx0_6 : ∀ i : grid0.Coords, EltTy.bits .bf16 = 32 ∨ (Rect.block (s := S256x4) S256x4.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S1003520x1.size a
  hwx0_8 : ∀ i : grid0.Coords, EltTy.bits .f32 = 32 ∨ (Rect.block (s := S1003520x1) S4096x1.size (cc0_transform_8 i) (hinb0_8 i)).WholeWords (EltTy.packing .f32)

variable [Facts₀]

def scatter_S256x256_S2_S64x64_01_n_01_0 : ScatterDims S256x256 S2 S64x64 where
  updateWindowDims := [0, 1]
  insertedWindowDims := []
  scatterDimsToOperandDims := [0, 1]
  indexVectorDim := 0
  wf := scatter_S256x256_S2_S64x64_01_n_01_0_wf
def scatter_S256x4_S2_S64_0_1_01_0 : ScatterDims S256x4 S2 S64 where
  updateWindowDims := [0]
  insertedWindowDims := [1]
  scatterDimsToOperandDims := [0, 1]
  indexVectorDim := 0
  wf := scatter_S256x4_S2_S64_0_1_01_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S256x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v61) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S4x128x64 : Shape := ⟨3, ![4, 128, 64]⟩
abbrev S4x64 : Shape := ⟨2, ![4, 64]⟩
abbrev S4x64x64 : Shape := ⟨3, ![4, 64, 64]⟩
abbrev S4x64x1 : Shape := ⟨3, ![4, 64, 1]⟩
abbrev S4x1 : Shape := ⟨2, ![4, 1]⟩
abbrev S_ : Shape := ⟨0, ![]⟩
abbrev S1x128x64 : Shape := ⟨3, ![1, 128, 64]⟩
abbrev S128x64 : Shape := ⟨2, ![128, 64]⟩
abbrev S1000000x64 : Shape := ⟨2, ![1000000, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S1000000x1 : Shape := ⟨2, ![1000000, 1]⟩
abbrev S1x1 : Shape := ⟨2, ![1, 1]⟩
abbrev S1 : Shape := ⟨1, ![1]⟩

abbrev nBuf : Space → Nat
  | .hbm => 134
  | .vmem => 0
  | .smem => 0
  | _ => 0

abbrev hbmTy0_0 (i : Nat) : BufTy := match i % 128 with
  | 0 => ⟨S1000000x128, .f32⟩
  | 1 => ⟨S1000000, .i32⟩
  | 2 => ⟨S4x128x64, .f32⟩
  | 3 => ⟨S4x64, .f32⟩
  | 4 => ⟨S4x64x64, .f32⟩
  | 5 => ⟨S4x64, .f32⟩
  | 6 => ⟨S4x64x1, .f32⟩
  | 7 => ⟨S4x1, .f32⟩
  | 8 => ⟨S_, .f32⟩
  | 9 => ⟨S1000000, .f32⟩
  | 10 => ⟨S1x128x64, .f32⟩
  | 11 => ⟨S128x64, .f32⟩
  | 12 => ⟨S1000000x64, .f32⟩
  | 13 => ⟨S1x64, .f32⟩
  | 14 => ⟨S64, .f32⟩
  | 15 => ⟨S1x64, .f32⟩
  | 16 => ⟨S1000000x64, .f32⟩
  | 17 => ⟨S1000000x64, .f32⟩
  | 18 => ⟨S1000000x64, .f32⟩
  | 19 => ⟨S1x64x64, .f32⟩
  | 20 => ⟨S64x64, .f32⟩
  | 21 => ⟨S1000000x64, .f32⟩
  | 22 => ⟨S1x64, .f32⟩
  | 23 => ⟨S64, .f32⟩
  | 24 => ⟨S1x64, .f32⟩
  | 25 => ⟨S1000000x64, .f32⟩
  | 26 => ⟨S1000000x64, .f32⟩
  | 27 => ⟨S1000000x64, .f32⟩
  | 28 => ⟨S1x64x1, .f32⟩
  | 29 => ⟨S64x1, .f32⟩
  | 30 => ⟨S1000000x1, .f32⟩
  | 31 => ⟨S1x1, .f32⟩
  | 32 => ⟨S1, .f32⟩
  | 33 => ⟨S1x1, .f32⟩
  | 34 => ⟨S1000000x1, .f32⟩
  | 35 => ⟨S1000000x1, .f32⟩
  | 36 => ⟨S1000000, .f32⟩
  | 37 => ⟨S_, .i32⟩
  | 38 => ⟨S1000000, .i32⟩
  | 39 => ⟨S1000000, .i1⟩
  | 40 => ⟨S1000000, .f32⟩
  | 41 => ⟨S1x128x64, .f32⟩
  | 42 => ⟨S128x64, .f32⟩
  | 43 => ⟨S1000000x64, .f32⟩
  | 44 => ⟨S1x64, .f32⟩
  | 45 => ⟨S64, .f32⟩
  | 46 => ⟨S1x64, .f32⟩
  | 47 => ⟨S1000000x64, .f32⟩
  | 48 => ⟨S1000000x64, .f32⟩
  | 49 => ⟨S1000000x64, .f32⟩
  | 50 => ⟨S1x64x64, .f32⟩
  | 51 => ⟨S64x64, .f32⟩
  | 52 => ⟨S1000000x64, .f32⟩
  | 53 => ⟨S1x64, .f32⟩
  | 54 => ⟨S64, .f32⟩
  | 55 => ⟨S1x64, .f32⟩
  | 56 => ⟨S1000000x64, .f32⟩
  | 57 => ⟨S1000000x64, .f32⟩
  | 58 => ⟨S1000000x64, .f32⟩
  | 59 => ⟨S1x64x1, .f32⟩
  | 60 => ⟨S64x1, .f32⟩
  | 61 => ⟨S1000000x1, .f32⟩
  | 62 => ⟨S1x1, .f32⟩
  | 63 => ⟨S1, .f32⟩
  | 64 => ⟨S1x1, .f32⟩
  | 65 => ⟨S1000000x1, .f32⟩
  | 66 => ⟨S1000000x1, .f32⟩
  | 67 => ⟨S1000000, .f32⟩
  | 68 => ⟨S_, .i32⟩
  | 69 => ⟨S1000000, .i32⟩
  | 70 => ⟨S1000000, .i1⟩
  | 71 => ⟨S1000000, .f32⟩
  | 72 => ⟨S1x128x64, .f32⟩
  | 73 => ⟨S128x64, .f32⟩
  | 74 => ⟨S1000000x64, .f32⟩
  | 75 => ⟨S1x64, .f32⟩
  | 76 => ⟨S64, .f32⟩
  | 77 => ⟨S1x64, .f32⟩
  | 78 => ⟨S1000000x64, .f32⟩
  | 79 => ⟨S1000000x64, .f32⟩
  | 80 => ⟨S1000000x64, .f32⟩
  | 81 => ⟨S1x64x64, .f32⟩
  | 82 => ⟨S64x64, .f32⟩
  | 83 => ⟨S1000000x64, .f32⟩
  | 84 => ⟨S1x64, .f32⟩
  | 85 => ⟨S64, .f32⟩
  | 86 => ⟨S1x64, .f32⟩
  | 87 => ⟨S1000000x64, .f32⟩
  | 88 => ⟨S1000000x64, .f32⟩
  | 89 => ⟨S1000000x64, .f32⟩
  | 90 => ⟨S1x64x1, .f32⟩
  | 91 => ⟨S64x1, .f32⟩
  | 92 => ⟨S1000000x1, .f32⟩
  | 93 => ⟨S1x1, .f32⟩
  | 94 => ⟨S1, .f32⟩
  | 95 => ⟨S1x1, .f32⟩
  | 96 => ⟨S1000000x1, .f32⟩
  | 97 => ⟨S1000000x1, .f32⟩
  | 98 => ⟨S1000000, .f32⟩
  | 99 => ⟨S_, .i32⟩
  | 100 => ⟨S1000000, .i32⟩
  | 101 => ⟨S1000000, .i1⟩
  | 102 => ⟨S1000000, .f32⟩
  | 103 => ⟨S1x128x64, .f32⟩
  | 104 => ⟨S128x64, .f32⟩
  | 105 => ⟨S1000000x64, .f32⟩
  | 106 => ⟨S1x64, .f32⟩
  | 107 => ⟨S64, .f32⟩
  | 108 => ⟨S1x64, .f32⟩
  | 109 => ⟨S1000000x64, .f32⟩
  | 110 => ⟨S1000000x64, .f32⟩
  | 111 => ⟨S1000000x64, .f32⟩
  | 112 => ⟨S1x64x64, .f32⟩
  | 113 => ⟨S64x64, .f32⟩
  | 114 => ⟨S1000000x64, .f32⟩
  | 115 => ⟨S1x64, .f32⟩
  | 116 => ⟨S64, .f32⟩
  | 117 => ⟨S1x64, .f32⟩
  | 118 => ⟨S1000000x64, .f32⟩
  | 119 => ⟨S1000000x64, .f32⟩
  | 120 => ⟨S1000000x64, .f32⟩
  | 121 => ⟨S1x64x1, .f32⟩
  | 122 => ⟨S64x1, .f32⟩
  | 123 => ⟨S1000000x1, .f32⟩
  | 124 => ⟨S1x1, .f32⟩
  | 125 => ⟨S1, .f32⟩
  | 126 => ⟨S1x1, .f32⟩
  | 127 => ⟨S1000000x1, .f32⟩
  | _ => ⟨S1000000x128, .f32⟩

abbrev hbmTy0_1 (i : Nat) : BufTy := match i % 128 with
  | 0 => ⟨S1000000x1, .f32⟩
  | 1 => ⟨S1000000, .f32⟩
  | 2 => ⟨S_, .i32⟩
  | 3 => ⟨S1000000, .i32⟩
  | 4 => ⟨S1000000, .i1⟩
  | 5 => ⟨S1000000, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_c_0 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_c_1 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_c_2 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  slices_S4x64x64_S1x64x64_0_0_0 : S4x64x64.Slices ![0, 0, 0] S1x64x64
  shapeCasts_S1x64x64_S64x64 : S1x64x64.ShapeCasts S64x64
  slices_S4x64x1_S1x64x1_0_0_0 : S4x64x1.Slices ![0, 0, 0] S1x64x1
  shapeCasts_S1x64x1_S64x1 : S1x64x1.ShapeCasts S64x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x64x1_S1x64x1_1_0_0 : S4x64x1.Slices ![1, 0, 0] S1x64x1
  slices_S4x1_S1x1_1_0 : S4x1.Slices ![1, 0] S1x1
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x64x1_S1x64x1_2_0_0 : S4x64x1.Slices ![2, 0, 0] S1x64x1
  slices_S4x1_S1x1_2_0 : S4x1.Slices ![2, 0] S1x1
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  slices_S4x64x1_S1x64x1_3_0_0 : S4x64x1.Slices ![3, 0, 0] S1x64x1
  slices_S4x1_S1x1_3_0 : S4x1.Slices ![3, 0] S1x1
  dot_S1000000x128_S128x64_S1000000x64_1_0_0_1_n_n_wf : DotDims.WF S1000000x128 S128x64 S1000000x64 [1] [0] [0] [1] [] []
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The mathematics both programs compute, stated once, over the extended reals.

  An atom is a row `xr : Fin 128 → EReal` of features and a species word `sp`. Each of the four species `s` has its
  own small network: a first hidden layer `tanh (xr · W1[s] + b1[s])` of 64 units, a second
  `tanh (hid1 · W2[s] + b2[s])` of 64 units, and a scalar read-out `hid2 · W3[s] + b3[s]`. The atom's energy is the
  read-out of the species its word names, and zero when the word names none of the four: `pick`, a chain of four
  selections, the test for species 3 outermost (the order in which a loop over the species overwrites a zero array).
-/
import Idealize.ShloMosaic.PureOps.Ideal
import Idealize.ShloMosaic.Lib.ValueIdx

noncomputable section

namespace Cert.Spec

open Idealize.ShloMosaic Idealize.ShloMosaic.ValueIdx

/-- Unit `h` of species `s`'s first hidden layer, of one row of features. -/
def hid1 (xr : Fin 128 → EReal) (W1 : (⟨3, ![4, 128, 64]⟩ : Shape).Idx → EReal) (b1 : (⟨2, ![4, 64]⟩ : Shape).Idx → EReal)
    (s : Fin 4) (h : Fin 64) : EReal :=
  Ideal.tanh ((∑ f : Fin 128, xr f * W1 (ix3 s f h)) + b1 (ix2 s h))

/-- Unit `h` of species `s`'s second hidden layer. -/
def hid2 (xr : Fin 128 → EReal) (W1 : (⟨3, ![4, 128, 64]⟩ : Shape).Idx → EReal) (b1 : (⟨2, ![4, 64]⟩ : Shape).Idx → EReal)
    (W2 : (⟨3, ![4, 64, 64]⟩ : Shape).Idx → EReal) (b2 : (⟨2, ![4, 64]⟩ : Shape).Idx → EReal)
    (s : Fin 4) (h : Fin 64) : EReal :=
  Ideal.tanh ((∑ k : Fin 64, hid1 xr W1 b1 s k * W2 (ix3 s k h)) + b2 (ix2 s h))

/-- Species `s`'s read-out of one row of features. -/
def energy (xr : Fin 128 → EReal) (W1 : (⟨3, ![4, 128, 64]⟩ : Shape).Idx → EReal) (b1 : (⟨2, ![4, 64]⟩ : Shape).Idx → EReal)
    (W2 : (⟨3, ![4, 64, 64]⟩ : Shape).Idx → EReal) (b2 : (⟨2, ![4, 64]⟩ : Shape).Idx → EReal)
    (W3 : (⟨3, ![4, 64, 1]⟩ : Shape).Idx → EReal) (b3 : (⟨2, ![4, 1]⟩ : Shape).Idx → EReal)
    (s : Fin 4) : EReal :=
  (∑ k : Fin 64, hid2 xr W1 b1 W2 b2 s k * W3 (ix3 s k 0)) + b3 (ix2 s 0)

/-- The read-out of the species the word `sp` names; zero when it names none of `0 … 3`. -/
def pick (sp : BitVec 32) (e : Fin 4 → EReal) : EReal :=
  Scalar.select (IntOp.cmpi .eq sp 3#32) (e 3)
    (Scalar.select (IntOp.cmpi .eq sp 2#32) (e 2)
      (Scalar.select (IntOp.cmpi .eq sp 1#32) (e 1)
        (Scalar.select (IntOp.cmpi .eq sp 0#32) (e 0) 0)))

/-- The energy of every atom: the whole result array as one function of the eight argument arrays. -/
def G (x : (⟨2, ![1000000, 128]⟩ : Shape).Idx → EReal) (sp : (⟨1, ![1000000]⟩ : Shape).Idx → BitVec 32)
    (W1 : (⟨3, ![4, 128, 64]⟩ : Shape).Idx → EReal) (b1 : (⟨2, ![4, 64]⟩ : Shape).Idx → EReal)
    (W2 : (⟨3, ![4, 64, 64]⟩ : Shape).Idx → EReal) (b2 : (⟨2, ![4, 64]⟩ : Shape).Idx → EReal)
    (W3 : (⟨3, ![4, 64, 1]⟩ : Shape).Idx → EReal) (b3 : (⟨2, ![4, 1]⟩ : Shape).Idx → EReal) :
    (⟨1, ![1000000]⟩ : Shape).Idx → EReal :=
  fun i => pick (sp i) (energy (fun f => x (ix2 (i 0) f)) W1 b1 W2 b2 W3 b3)

end Cert.Spec

end
-- ==== Proof.RefIsSpec.lean ====
/-
  The reference program's result is the specification.

  For each of the four species `s` the reference runs the three-layer network on every atom's row of features with
  the species' own part of the stacked parameters: slab `s` is cut out of each stacked weight array and its unit axis
  dropped, row `s` of each stacked bias is spread along the atoms. It then overwrites an array of zeros four times,
  species 0 first, wherever the atom's species word equals `s`. Read at one atom `r` this is `Spec.pick` of the word
  at `r` and of `Spec.energy` of row `r`. The slab lemmas identify each cut and re-laid weight with the stacked array
  at `ix3 s · ·` (the only arithmetic: a flattened position `a * B + b` with `b < B` splits back into `a` and `b`);
  the layer lemmas then read the three contractions as the specification's sums, innermost layer first; and the four
  selections are `pick`, word for word.
-/
import proofs.«120765_j59296318489074_2_alg».proof.Proof.Gen.ReferenceIdeal.Read
import proofs.«120765_j59296318489074_2_alg».proof.Proof.Spec

noncomputable section

namespace Cert.ReferenceIdeal.RefValue

open Cert.ReferenceIdeal Cert.ReferenceIdeal.Read Idealize.ShloMosaic Idealize.ShloMosaic.ValueIdx
open scoped BigOperators

/-! ## Positions in the stacked parameter arrays -/

/-- An index of the stacked 4 × 128 × 64 array whose leading coordinate is `s` and whose other two are the quotient
    and the remainder of the flattened position `f * 64 + h` is `(s, f, h)`. -/
theorem slab_128x64 (s : Fin 4) (f : Fin 128) (h : Fin 64) (j : S4x128x64.Idx) (h0 : (j 0).val = s.val)
    (h1 : (j 1).val = (f.val * 64 + h.val) / 64 % 128) (h2 : (j 2).val = (f.val * 64 + h.val) % 64) :
    j = ix3 s f h := by
  have hf := f.isLt
  have hh := h.isLt
  funext a
  refine Fin.ext ?_
  match a with
  | ⟨0, _⟩ => exact h0
  | ⟨1, _⟩ => exact h1.trans (show (f.val * 64 + h.val) / 64 % 128 = f.val by omega)
  | ⟨2, _⟩ => exact h2.trans (show (f.val * 64 + h.val) % 64 = h.val by omega)

/-- The same for the stacked 4 × 64 × 64 array. -/
theorem slab_64x64 (s : Fin 4) (k h : Fin 64) (j : S4x64x64.Idx) (h0 : (j 0).val = s.val)
    (h1 : (j 1).val = (k.val * 64 + h.val) / 64 % 64) (h2 : (j 2).val = (k.val * 64 + h.val) % 64) :
    j = ix3 s k h := by
  have hk := k.isLt
  have hh := h.isLt
  funext a
  refine Fin.ext ?_
  match a with
  | ⟨0, _⟩ => exact h0
  | ⟨1, _⟩ => exact h1.trans (show (k.val * 64 + h.val) / 64 % 64 = k.val by omega)
  | ⟨2, _⟩ => exact h2.trans (show (k.val * 64 + h.val) % 64 = h.val by omega)

/-- The same for the stacked 4 × 64 × 1 array, whose last axis has the one position 0. -/
theorem slab_64x1 (s : Fin 4) (k : Fin 64) (z : Fin 1) (j : S4x64x1.Idx) (h0 : (j 0).val = s.val)
    (h1 : (j 1).val = (k.val * 1 + z.val) / 1 % 64) (h2 : (j 2).val = 0) :
    j = ix3 s k 0 := by
  have hk := k.isLt
  have hz := z.isLt
  funext a
  refine Fin.ext ?_
  match a with
  | ⟨0, _⟩ => exact h0
  | ⟨1, _⟩ => exact h1.trans (show (k.val * 1 + z.val) / 1 % 64 = k.val by omega)
  | ⟨2, _⟩ => exact h2

/-- An index of a stacked 4 × 64 bias whose leading coordinate is `s` and whose second is `h` reduced modulo 64 is
    `(s, h)`. -/
theorem row_64 (s : Fin 4) (h : Fin 64) (j : S4x64.Idx) (h0 : (j 0).val = s.val) (h1 : (j 1).val = h.val % 64) :
    j = ix2 s h := by
  have hh := h.isLt
  funext a
  refine Fin.ext ?_
  match a with
  | ⟨0, _⟩ => exact h0
  | ⟨1, _⟩ => exact h1.trans (show h.val % 64 = h.val by omega)

/-- An index of the stacked 4 × 1 bias whose leading coordinate is `s` is `(s, 0)`. -/
theorem entry_1 (s : Fin 4) (j : S4x1.Idx) (h0 : (j 0).val = s.val) (h1 : (j 1).val = 0) : j = ix2 s 0 := by
  funext a
  refine Fin.ext ?_
  match a with
  | ⟨0, _⟩ => exact h0
  | ⟨1, _⟩ => exact h1

variable (x0 : (⟨S1000000x128, .f32⟩ : BufTy).Contents (Elt Ideal)) (x1 : (⟨S1000000, .i32⟩ : BufTy).Contents (Elt Ideal))
  (x2 : (⟨S4x128x64, .f32⟩ : BufTy).Contents (Elt Ideal)) (x3 : (⟨S4x64, .f32⟩ : BufTy).Contents (Elt Ideal))
  (x4 : (⟨S4x64x64, .f32⟩ : BufTy).Contents (Elt Ideal)) (x5 : (⟨S4x64, .f32⟩ : BufTy).Contents (Elt Ideal))
  (x6 : (⟨S4x64x1, .f32⟩ : BufTy).Contents (Elt Ideal)) (x7 : (⟨S4x1, .f32⟩ : BufTy).Contents (Elt Ideal))

/-! ## Species 0 -/

/-- Its first weight matrix is slab 0 of the stacked one. -/
theorem w1_0 (f : Fin 128) (h : Fin 64) : val_main_v2 (F := Ideal) x2 (ix2 f h) = x2 (ix3 0 f h) := by
  rw [val_main_v2_apply, val_main_v1_apply]
  exact congrArg x2 (slab_128x64 0 f h _ rfl rfl rfl)

/-- Its first bias, spread along the atoms, is row 0 of the stacked one. -/
theorem b1_0 (r : Fin 1000000) (h : Fin 64) : val_main_v7 (F := Ideal) x3 (ix2 r h) = x3 (ix2 0 h) := by
  rw [val_main_v7_apply, val_main_v6_apply, val_main_v5_apply, val_main_v4_apply]
  exact congrArg x3 (row_64 0 h _ rfl rfl)

/-- Its second weight matrix is slab 0 of the stacked one. -/
theorem w2_0 (k h : Fin 64) : val_main_v11 (F := Ideal) x4 (ix2 k h) = x4 (ix3 0 k h) := by
  rw [val_main_v11_apply, val_main_v10_apply]
  exact congrArg x4 (slab_64x64 0 k h _ rfl rfl rfl)

/-- Its second bias, spread along the atoms, is row 0 of the stacked one. -/
theorem b2_0 (r : Fin 1000000) (h : Fin 64) : val_main_v16 (F := Ideal) x5 (ix2 r h) = x5 (ix2 0 h) := by
  rw [val_main_v16_apply, val_main_v15_apply, val_main_v14_apply, val_main_v13_apply]
  exact congrArg x5 (row_64 0 h _ rfl rfl)

/-- Its read-out column is slab 0 of the stacked one. -/
theorem w3_0 (k : Fin 64) (z : Fin 1) : val_main_v20 (F := Ideal) x6 (ix2 k z) = x6 (ix3 0 k 0) := by
  rw [val_main_v20_apply, val_main_v19_apply]
  exact congrArg x6 (slab_64x1 0 k z _ rfl rfl rfl)

/-- Its read-out bias, spread along the atoms, is entry 0 of the stacked one. -/
theorem b3_0 (r : Fin 1000000) (z : Fin 1) : val_main_v25 (F := Ideal) x7 (ix2 r z) = x7 (ix2 0 0) := by
  rw [val_main_v25_apply, val_main_v24_apply, val_main_v23_apply, val_main_v22_apply]
  exact congrArg x7 (entry_1 0 _ rfl rfl)

/-- The first hidden layer of atom `r`. -/
theorem hid1_0 (r : Fin 1000000) (h : Fin 64) :
    val_main_v9 (F := Ideal) x0 x2 x3 (ix2 r h) = Cert.Spec.hid1 (fun f => x0 (ix2 r f)) x2 x3 0 h := by
  rw [val_main_v9_apply, val_main_v8_apply, val_main_v3_apply, b1_0, Ideal.hostUnary_tanh_def, Ideal.addf_def]
  unfold Cert.Spec.hid1
  refine congrArg (fun t => Ideal.tanh (t + x3 (ix2 0 h))) (Finset.sum_congr rfl fun k _ => ?_)
  have el : lidx_main_v3 (ix2 r h) k = ix2 r k :=
    funext fun a => Fin.ext (by match a with | ⟨0, _⟩ => rfl | ⟨1, _⟩ => rfl)
  have er : ridx_main_v3 (ix2 r h) k = ix2 k h :=
    funext fun a => Fin.ext (by match a with | ⟨0, _⟩ => rfl | ⟨1, _⟩ => rfl)
  rw [el, er, w1_0]

/-- The second hidden layer of atom `r`. -/
theorem hid2_0 (r : Fin 1000000) (h : Fin 64) :
    val_main_v18 (F := Ideal) x0 x2 x3 x4 x5 (ix2 r h) = Cert.Spec.hid2 (fun f => x0 (ix2 r f)) x2 x3 x4 x5 0 h := by
  rw [val_main_v18_apply, val_main_v17_apply, val_main_v12_apply, b2_0, Ideal.hostUnary_tanh_def, Ideal.addf_def]
  unfold Cert.Spec.hid2
  refine congrArg (fun t => Ideal.tanh (t + x5 (ix2 0 h))) (Finset.sum_congr rfl fun k _ => ?_)
  have el : lidx_main_v12 (ix2 r h) k = ix2 r k :=
    funext fun a => Fin.ext (by match a with | ⟨0, _⟩ => rfl | ⟨1, _⟩ => rfl)
  have er : ridx_main_v12 (ix2 r h) k = ix2 k h :=
    funext fun a => Fin.ext (by match a with | ⟨0, _⟩ => rfl | ⟨1, _⟩ => rfl)
  rw [el, er, w2_0, hid1_0]

/-- The read-out of atom `r`. -/
theorem energy_0 (r : Fin 1000000) :
    val_main_v27 (F := Ideal) x0 x2 x3 x4 x5 x6 x7 (ix1 r)
      = Cert.Spec.energy (fun f => x0 (ix2 r f)) x2 x3 x4 x5 x6 x7 0 := by
  have e : idx_main_v27 (ix1 r) = ix2 r 0 :=
    funext fun a => Fin.ext (by match a with | ⟨0, _⟩ => exact Nat.div_one _ | ⟨1, _⟩ => rfl)
  rw [val_main_v27_apply, e, val_main_v26_apply, val_main_v21_apply, b3_0, Ideal.addf_def]
  unfold Cert.Spec.energy
  refine congrArg (fun t => t + x7 (ix2 0 0)) (Finset.sum_congr rfl fun k _ => ?_)
  have el : lidx_main_v21 (ix2 r 0) k = ix2 r k :=
    funext fun a => Fin.ext (by match a with | ⟨0, _⟩ => rfl | ⟨1, _⟩ => rfl)
  have er : ridx_main_v21 (ix2 r 0) k = ix2 k 0 :=
    funext fun a => Fin.ext (by match a with | ⟨0, _⟩ => rfl | ⟨1, _⟩ => rfl)
  rw [el, er, w3_0, hid2_0]

/-- The test "the species word is 0", at one atom. -/
theorem is_0 (i : S1000000.Idx) : val_main_v29 (F := Ideal) x1 i = IntOp.cmpi .eq (x1 i) 0#32 := by
  rw [val_main_v29_apply, val_main_v28_apply, val_main_c_apply]

/-! ## Species 1 -/

/-- Its first weight matrix is slab 1 of the stacked one. -/
theorem w1_1 (f : Fin 128) (h : Fin 64) : val_main_v32 (F := Ideal) x2 (ix2 f h) = x2 (ix3 1 f h) := by
  rw [val_main_v32_apply, val_main_v31_apply]
  exact congrArg x2 (slab_128x64 1 f h _ rfl rfl rfl)

/-- Its first bias, spread along the atoms, is row 1 of the stacked one. -/
theorem b1_1 (r : Fin 1000000) (h : Fin 64) : val_main_v37 (F := Ideal) x3 (ix2 r h) = x3 (ix2 1 h) := by
  rw [val_main_v37_apply, val_main_v36_apply, val_main_v35_apply, val_main_v34_apply]
  exact congrArg x3 (row_64 1 h _ rfl rfl)

/-- Its second weight matrix is slab 1 of the stacked one. -/
theorem w2_1 (k h : Fin 64) : val_main_v41 (F := Ideal) x4 (ix2 k h) = x4 (ix3 1 k h) := by
  rw [val_main_v41_apply, val_main_v40_apply]
  exact congrArg x4 (slab_64x64 1 k h _ rfl rfl rfl)

/-- Its second bias, spread along the atoms, is row 1 of the stacked one. -/
theorem b2_1 (r : Fin 1000000) (h : Fin 64) : val_main_v46 (F := Ideal) x5 (ix2 r h) = x5 (ix2 1 h) := by
  rw [val_main_v46_apply, val_main_v45_apply, val_main_v44_apply, val_main_v43_apply]
  exact congrArg x5 (row_64 1 h _ rfl rfl)

/-- Its read-out column is slab 1 of the stacked one. -/
theorem w3_1 (k : Fin 64) (z : Fin 1) : val_main_v50 (F := Ideal) x6 (ix2 k z) = x6 (ix3 1 k 0) := by
  rw [val_main_v50_apply, val_main_v49_apply]
  exact congrArg x6 (slab_64x1 1 k z _ rfl rfl rfl)

/-- Its read-out bias, spread along the atoms, is entry 1 of the stacked one. -/
theorem b3_1 (r : Fin 1000000) (z : Fin 1) : val_main_v55 (F := Ideal) x7 (ix2 r z) = x7 (ix2 1 0) := by
  rw [val_main_v55_apply, val_main_v54_apply, val_main_v53_apply, val_main_v52_apply]
  exact congrArg x7 (entry_1 1 _ rfl rfl)

/-- The first hidden layer of atom `r`. -/
theorem hid1_1 (r : Fin 1000000) (h : Fin 64) :
    val_main_v39 (F := Ideal) x0 x2 x3 (ix2 r h) = Cert.Spec.hid1 (fun f => x0 (ix2 r f)) x2 x3 1 h := by
  rw [val_main_v39_apply, val_main_v38_apply, val_main_v33_apply, b1_1, Ideal.hostUnary_tanh_def, Ideal.addf_def]
  unfold Cert.Spec.hid1
  refine congrArg (fun t => Ideal.tanh (t + x3 (ix2 1 h))) (Finset.sum_congr rfl fun k _ => ?_)
  have el : lidx_main_v33 (ix2 r h) k = ix2 r k :=
    funext fun a => Fin.ext (by match a with | ⟨0, _⟩ => rfl | ⟨1, _⟩ => rfl)
  have er : ridx_main_v33 (ix2 r h) k = ix2 k h :=
    funext fun a => Fin.ext (by match a with | ⟨0, _⟩ => rfl | ⟨1, _⟩ => rfl)
  rw [el, er, w1_1]

/-- The second hidden layer of atom `r`. -/
theorem hid2_1 (r : Fin 1000000) (h : Fin 64) :
    val_main_v48 (F := Ideal) x0 x2 x3 x4 x5 (ix2 r h) = Cert.Spec.hid2 (fun f => x0 (ix2 r f)) x2 x3 x4 x5 1 h := by
  rw [val_main_v48_apply, val_main_v47_apply, val_main_v42_apply, b2_1, Ideal.hostUnary_tanh_def, Ideal.addf_def]
  unfold Cert.Spec.hid2
  refine congrArg (fun t => Ideal.tanh (t + x5 (ix2 1 h))) (Finset.sum_congr rfl fun k _ => ?_)
  have el : lidx_main_v42 (ix2 r h) k = ix2 r k :=
    funext fun a => Fin.ext (by match a with | ⟨0, _⟩ => rfl | ⟨1, _⟩ => rfl)
  have er : ridx_main_v42 (ix2 r h) k = ix2 k h :=
    funext fun a => Fin.ext (by match a with | ⟨0, _⟩ => rfl | ⟨1, _⟩ => rfl)
  rw [el, er, w2_1, hid1_1]

/-- The read-out of atom `r`. -/
theorem energy_1 (r : Fin 1000000) :
    val_main_v57 (F := Ideal) x0 x2 x3 x4 x5 x6 x7 (ix1 r)
      = Cert.Spec.energy (fun f => x0 (ix2 r f)) x2 x3 x4 x5 x6 x7 1 := by
  have e : idx_main_v57 (ix1 r) = ix2 r 0 :=
    funext fun a => Fin.ext (by match a with | ⟨0, _⟩ => exact Nat.div_one _ | ⟨1, _⟩ => rfl)
  rw [val_main_v57_apply, e, val_main_v56_apply, val_main_v51_apply, b3_1, Ideal.addf_def]
  unfold Cert.Spec.energy
  refine congrArg (fun t => t + x7 (ix2 1 0)) (Finset.sum_congr rfl fun k _ => ?_)
  have el : lidx_main_v51 (ix2 r 0) k = ix2 r k :=
    funext fun a => Fin.ext (by match a with | ⟨0, _⟩ => rfl | ⟨1, _⟩ => rfl)
  have er : ridx_main_v51 (ix2 r 0) k = ix2 k 0 :=
    funext fun a => Fin.ext (by match a with | ⟨0, _⟩ => rfl | ⟨1, _⟩ => rfl)
  rw [el, er, w3_1, hid2_1]

/-- The test "the species word is 1", at one atom. -/
theorem is_1 (i : S1000000.Idx) : val_main_v59 (F := Ideal) x1 i = IntOp.cmpi .eq (x1 i) 1#32 := by
  rw [val_main_v59_apply, val_main_v58_apply, val_main_c_0_apply]

/-! ## Species 2 -/

/-- Its first weight matrix is slab 2 of the stacked one. -/
theorem w1_2 (f : Fin 128) (h : Fin 64) : val_main_v62 (F := Ideal) x2 (ix2 f h) = x2 (ix3 2 f h) := by
  rw [val_main_v62_apply, val_main_v61_apply]
  exact congrArg x2 (slab_128x64 2 f h _ rfl rfl rfl)

/-- Its first bias, spread along the atoms, is row 2 of the stacked one. -/
theorem b1_2 (r : Fin 1000000) (h : Fin 64) : val_main_v67 (F := Ideal) x3 (ix2 r h) = x3 (ix2 2 h) := by
  rw [val_main_v67_apply, val_main_v66_apply, val_main_v65_apply, val_main_v64_apply]
  exact congrArg x3 (row_64 2 h _ rfl rfl)

/-- Its second weight matrix is slab 2 of the stacked one. -/
theorem w2_2 (k h : Fin 64) : val_main_v71 (F := Ideal) x4 (ix2 k h) = x4 (ix3 2 k h) := by
  rw [val_main_v71_apply, val_main_v70_apply]
  exact congrArg x4 (slab_64x64 2 k h _ rfl rfl rfl)

/-- Its second bias, spread along the atoms, is row 2 of the stacked one. -/
theorem b2_2 (r : Fin 1000000) (h : Fin 64) : val_main_v76 (F := Ideal) x5 (ix2 r h) = x5 (ix2 2 h) := by
  rw [val_main_v76_apply, val_main_v75_apply, val_main_v74_apply, val_main_v73_apply]
  exact congrArg x5 (row_64 2 h _ rfl rfl)

/-- Its read-out column is slab 2 of the stacked one. -/
theorem w3_2 (k : Fin 64) (z : Fin 1) : val_main_v80 (F := Ideal) x6 (ix2 k z) = x6 (ix3 2 k 0) := by
  rw [val_main_v80_apply, val_main_v79_apply]
  exact congrArg x6 (slab_64x1 2 k z _ rfl rfl rfl)

/-- Its read-out bias, spread along the atoms, is entry 2 of the stacked one. -/
theorem b3_2 (r : Fin 1000000) (z : Fin 1) : val_main_v85 (F := Ideal) x7 (ix2 r z) = x7 (ix2 2 0) := by
  rw [val_main_v85_apply, val_main_v84_apply, val_main_v83_apply, val_main_v82_apply]
  exact congrArg x7 (entry_1 2 _ rfl rfl)

/-- The first hidden layer of atom `r`. -/
theorem hid1_2 (r : Fin 1000000) (h : Fin 64) :
    val_main_v69 (F := Ideal) x0 x2 x3 (ix2 r h) = Cert.Spec.hid1 (fun f => x0 (ix2 r f)) x2 x3 2 h := by
  rw [val_main_v69_apply, val_main_v68_apply, val_main_v63_apply, b1_2, Ideal.hostUnary_tanh_def, Ideal.addf_def]
  unfold Cert.Spec.hid1
  refine congrArg (fun t => Ideal.tanh (t + x3 (ix2 2 h))) (Finset.sum_congr rfl fun k _ => ?_)
  have el : lidx_main_v63 (ix2 r h) k = ix2 r k :=
    funext fun a => Fin.ext (by match a with | ⟨0, _⟩ => rfl | ⟨1, _⟩ => rfl)
  have er : ridx_main_v63 (ix2 r h) k = ix2 k h :=
    funext fun a => Fin.ext (by match a with | ⟨0, _⟩ => rfl | ⟨1, _⟩ => rfl)
  rw [el, er, w1_2]

/-- The second hidden layer of atom `r`. -/
theorem hid2_2 (r : Fin 1000000) (h : Fin 64) :
    val_main_v78 (F := Ideal) x0 x2 x3 x4 x5 (ix2 r h) = Cert.Spec.hid2 (fun f => x0 (ix2 r f)) x2 x3 x4 x5 2 h := by
  rw [val_main_v78_apply, val_main_v77_apply, val_main_v72_apply, b2_2, Ideal.hostUnary_tanh_def, Ideal.addf_def]
  unfold Cert.Spec.hid2
  refine congrArg (fun t => Ideal.tanh (t + x5 (ix2 2 h))) (Finset.sum_congr rfl fun k _ => ?_)
  have el : lidx_main_v72 (ix2 r h) k = ix2 r k :=
    funext fun a => Fin.ext (by match a with | ⟨0, _⟩ => rfl | ⟨1, _⟩ => rfl)
  have er : ridx_main_v72 (ix2 r h) k = ix2 k h :=
    funext fun a => Fin.ext (by match a with | ⟨0, _⟩ => rfl | ⟨1, _⟩ => rfl)
  rw [el, er, w2_2, hid1_2]

/-- The read-out of atom `r`. -/
theorem energy_2 (r : Fin 1000000) :
    val_main_v87 (F := Ideal) x0 x2 x3 x4 x5 x6 x7 (ix1 r)
      = Cert.Spec.energy (fun f => x0 (ix2 r f)) x2 x3 x4 x5 x6 x7 2 := by
  have e : idx_main_v87 (ix1 r) = ix2 r 0 :=
    funext fun a => Fin.ext (by match a with | ⟨0, _⟩ => exact Nat.div_one _ | ⟨1, _⟩ => rfl)
  rw [val_main_v87_apply, e, val_main_v86_apply, val_main_v81_apply, b3_2, Ideal.addf_def]
  unfold Cert.Spec.energy
  refine congrArg (fun t => t + x7 (ix2 2 0)) (Finset.sum_congr rfl fun k _ => ?_)
  have el : lidx_main_v81 (ix2 r 0) k = ix2 r k :=
    funext fun a => Fin.ext (by match a with | ⟨0, _⟩ => rfl | ⟨1, _⟩ => rfl)
  have er : ridx_main_v81 (ix2 r 0) k = ix2 k 0 :=
    funext fun a => Fin.ext (by match a with | ⟨0, _⟩ => rfl | ⟨1, _⟩ => rfl)
  rw [el, er, w3_2, hid2_2]

/-- The test "the species word is 2", at one atom. -/
theorem is_2 (i : S1000000.Idx) : val_main_v89 (F := Ideal) x1 i = IntOp.cmpi .eq (x1 i) 2#32 := by
  rw [val_main_v89_apply, val_main_v88_apply, val_main_c_1_apply]

/-! ## Species 3 -/

/-- Its first weight matrix is slab 3 of the stacked one. -/
theorem w1_3 (f : Fin 128) (h : Fin 64) : val_main_v92 (F := Ideal) x2 (ix2 f h) = x2 (ix3 3 f h) := by
  rw [val_main_v92_apply, val_main_v91_apply]
  exact congrArg x2 (slab_128x64 3 f h _ rfl rfl rfl)

/-- Its first bias, spread along the atoms, is row 3 of the stacked one. -/
theorem b1_3 (r : Fin 1000000) (h : Fin 64) : val_main_v97 (F := Ideal) x3 (ix2 r h) = x3 (ix2 3 h) := by
  rw [val_main_v97_apply, val_main_v96_apply, val_main_v95_apply, val_main_v94_apply]
  exact congrArg x3 (row_64 3 h _ rfl rfl)

/-- Its second weight matrix is slab 3 of the stacked one. -/
theorem w2_3 (k h : Fin 64) : val_main_v101 (F := Ideal) x4 (ix2 k h) = x4 (ix3 3 k h) := by
  rw [val_main_v101_apply, val_main_v100_apply]
  exact congrArg x4 (slab_64x64 3 k h _ rfl rfl rfl)

/-- Its second bias, spread along the atoms, is row 3 of the stacked one. -/
theorem b2_3 (r : Fin 1000000) (h : Fin 64) : val_main_v106 (F := Ideal) x5 (ix2 r h) = x5 (ix2 3 h) := by
  rw [val_main_v106_apply, val_main_v105_apply, val_main_v104_apply, val_main_v103_apply]
  exact congrArg x5 (row_64 3 h _ rfl rfl)

/-- Its read-out column is slab 3 of the stacked one. -/
theorem w3_3 (k : Fin 64) (z : Fin 1) : val_main_v110 (F := Ideal) x6 (ix2 k z) = x6 (ix3 3 k 0) := by
  rw [val_main_v110_apply, val_main_v109_apply]
  exact congrArg x6 (slab_64x1 3 k z _ rfl rfl rfl)

/-- Its read-out bias, spread along the atoms, is entry 3 of the stacked one. -/
theorem b3_3 (r : Fin 1000000) (z : Fin 1) : val_main_v115 (F := Ideal) x7 (ix2 r z) = x7 (ix2 3 0) := by
  rw [val_main_v115_apply, val_main_v114_apply, val_main_v113_apply, val_main_v112_apply]
  exact congrArg x7 (entry_1 3 _ rfl rfl)

/-- The first hidden layer of atom `r`. -/
theorem hid1_3 (r : Fin 1000000) (h : Fin 64) :
    val_main_v99 (F := Ideal) x0 x2 x3 (ix2 r h) = Cert.Spec.hid1 (fun f => x0 (ix2 r f)) x2 x3 3 h := by
  rw [val_main_v99_apply, val_main_v98_apply, val_main_v93_apply, b1_3, Ideal.hostUnary_tanh_def, Ideal.addf_def]
  unfold Cert.Spec.hid1
  refine congrArg (fun t => Ideal.tanh (t + x3 (ix2 3 h))) (Finset.sum_congr rfl fun k _ => ?_)
  have el : lidx_main_v93 (ix2 r h) k = ix2 r k :=
    funext fun a => Fin.ext (by match a with | ⟨0, _⟩ => rfl | ⟨1, _⟩ => rfl)
  have er : ridx_main_v93 (ix2 r h) k = ix2 k h :=
    funext fun a => Fin.ext (by match a with | ⟨0, _⟩ => rfl | ⟨1, _⟩ => rfl)
  rw [el, er, w1_3]

/-- The second hidden layer of atom `r`. -/
theorem hid2_3 (r : Fin 1000000) (h : Fin 64) :
    val_main_v108 (F := Ideal) x0 x2 x3 x4 x5 (ix2 r h) = Cert.Spec.hid2 (fun f => x0 (ix2 r f)) x2 x3 x4 x5 3 h := by
  rw [val_main_v108_apply, val_main_v107_apply, val_main_v102_apply, b2_3, Ideal.hostUnary_tanh_def, Ideal.addf_def]
  unfold Cert.Spec.hid2
  refine congrArg (fun t => Ideal.tanh (t + x5 (ix2 3 h))) (Finset.sum_congr rfl fun k _ => ?_)
  have el : lidx_main_v102 (ix2 r h) k = ix2 r k :=
    funext fun a => Fin.ext (by match a with | ⟨0, _⟩ => rfl | ⟨1, _⟩ => rfl)
  have er : ridx_main_v102 (ix2 r h) k = ix2 k h :=
    funext fun a => Fin.ext (by match a with | ⟨0, _⟩ => rfl | ⟨1, _⟩ => rfl)
  rw [el, er, w2_3, hid1_3]

/-- The read-out of atom `r`. -/
theorem energy_3 (r : Fin 1000000) :
    val_main_v117 (F := Ideal) x0 x2 x3 x4 x5 x6 x7 (ix1 r)
      = Cert.Spec.energy (fun f => x0 (ix2 r f)) x2 x3 x4 x5 x6 x7 3 := by
  have e : idx_main_v117 (ix1 r) = ix2 r 0 :=
    funext fun a => Fin.ext (by match a with | ⟨0, _⟩ => exact Nat.div_one _ | ⟨1, _⟩ => rfl)
  rw [val_main_v117_apply, e, val_main_v116_apply, val_main_v111_apply, b3_3, Ideal.addf_def]
  unfold Cert.Spec.energy
  refine congrArg (fun t => t + x7 (ix2 3 0)) (Finset.sum_congr rfl fun k _ => ?_)
  have el : lidx_main_v111 (ix2 r 0) k = ix2 r k :=
    funext fun a => Fin.ext (by match a with | ⟨0, _⟩ => rfl | ⟨1, _⟩ => rfl)
  have er : ridx_main_v111 (ix2 r 0) k = ix2 k 0 :=
    funext fun a => Fin.ext (by match a with | ⟨0, _⟩ => rfl | ⟨1, _⟩ => rfl)
  rw [el, er, w3_3, hid2_3]

/-- The test "the species word is 3", at one atom. -/
theorem is_3 (i : S1000000.Idx) : val_main_v119 (F := Ideal) x1 i = IntOp.cmpi .eq (x1 i) 3#32 := by
  rw [val_main_v119_apply, val_main_v118_apply, val_main_c_2_apply]

/-! ## The four selections -/

/-- The array the selections start from is zero everywhere. -/
theorem start_zero (i : S1000000.Idx) : val_main_v0 (F := Ideal) i = 0 := by
  rw [val_main_v0_apply, val_main_cst_apply, Ideal.ofBits_def, Ideal.ofBits_zero_f32]

/-- The reference's result array is the specification's: at atom `r` the last selection tests the word for 3 and
    falls back on the selection for 2, that on the one for 1, that on the one for 0, that on zero, and each species'
    branch is its read-out of row `r`. -/
theorem ref_eq_spec :
    Cert.ReferenceIdeal.Read.val_main_v120 (F := Ideal) x0 x1 x2 x3 x4 x5 x6 x7 = Cert.Spec.G x0 x1 x2 x3 x4 x5 x6 x7 := by
  funext i
  obtain ⟨r, rfl⟩ : ∃ r : Fin 1000000, i = ix1 r := ⟨i 0, eq_ix1 i⟩
  rw [val_main_v120_apply, val_main_v90_apply, val_main_v60_apply, val_main_v30_apply, is_3, is_2, is_1, is_0,
    start_zero, energy_3, energy_2, energy_1, energy_0]
  rfl

end Cert.ReferenceIdeal.RefValue

end
-- ==== Proof.KOperands.lean ====
/-
  The arrays the kernel's windows are launched on, each as a pure function of the program's argument arrays: the host
  operations before the launch, composed. The features and species are padded by 3,520 rows (zeros, and the word −1);
  the three weight tensors of the four species are laid side by side — the first layer's by a transposition and a
  flattening, the second and third layers' as BLOCK-DIAGONAL matrices, written block by block into a zero matrix —
  and the biases flattened.
-/
import proofs.«120765_j59296318489074_2_alg».proof.KernelIdeal
import proofs.«120765_j59296318489074_2_alg».proof.Proof.Gen.KernelIdeal

noncomputable section

namespace Cert.KernelIdeal.Operands

open Cert.KernelIdeal Cert.KernelIdeal.Facts₀ Cert.KernelIdeal.Facts Idealize.ShloMosaic

variable {F : FTy → Type} [FloatOps F]

/-- The features, padded below with rows of zeros. -/
def xpad (x : (⟨S1000000x128, .f32⟩ : BufTy).Contents (Elt F)) : (⟨S1003520x128, .f32⟩ : BufTy).Contents (Elt F) :=
  pad S1003520x128 ![0, 0] ![3520, 0] ![0, 0] x (sitofp .f32 (constantI S_ 32 0#32 : (⟨S_, .i32⟩ : BufTy).Contents (Elt F)) : (⟨S_, .f32⟩ : BufTy).Contents (Elt F))
    pads_S1000000x128_S1003520x128_035200_000 h_S_

/-- The species words, padded below with the word −1, as a column. -/
def sppad (sp : (⟨S1000000, .i32⟩ : BufTy).Contents (Elt F)) : (⟨S1003520x1, .i32⟩ : BufTy).Contents (Elt F) :=
  shapeCast S1003520x1
    (pad S1003520 ![0] ![3520] ![0] sp (id (constantI S_ 32 4294967295#32 : (⟨S_, .i32⟩ : BufTy).Contents (Elt F))) pads_S1000000_S1003520_035200 h_S_)
    shapeCasts_S1003520_S1003520x1

/-- The first layer's weights side by side: column `64 s + h` is species `s`'s column `h`. -/
def w1f (W1 : (⟨S4x128x64, .f32⟩ : BufTy).Contents (Elt F)) : (⟨S128x256, .bf16⟩ : BufTy).Contents (Elt F) :=
  truncf .bf16 (shapeCast S128x256 (transpose S128x4x64 [1, 0, 2] W1 transposes_S4x128x64_S128x4x64_1_0_2) shapeCasts_S128x4x64_S128x256) bitsLt_bf16_f32

/-- A bias matrix [4, 64] flattened to 256 entries. -/
def bflat (b : (⟨S4x64, .f32⟩ : BufTy).Contents (Elt F)) : (⟨S256, .f32⟩ : BufTy).Contents (Elt F) :=
  shapeCast S256 b shapeCasts_S4x64_S256

/-- The last bias [4, 1] flattened to 4 entries. -/
def b3flat (b : (⟨S4x1, .f32⟩ : BufTy).Contents (Elt F)) : (⟨S4, .f32⟩ : BufTy).Contents (Elt F) :=
  shapeCast S4 b shapeCasts_S4x1_S4

/-- The start index `(a, b)` of one written block. -/
def start2 (a b : BitVec 32) : (⟨S2, .i32⟩ : BufTy).Contents (Elt F) :=
  concatenate S2 0 [⟨S1, (broadcastInDim S1 ![] bcast_S_S1 (constantI S_ 32 a : (⟨S_, .i32⟩ : BufTy).Contents (Elt F)) : (⟨S1, .i32⟩ : BufTy).Contents (Elt F))⟩,
    ⟨S1, (broadcastInDim S1 ![] bcast_S_S1 (constantI S_ 32 b : (⟨S_, .i32⟩ : BufTy).Contents (Elt F)) : (⟨S1, .i32⟩ : BufTy).Contents (Elt F))⟩] concatenates_S1_S1_S2_d0

/-- Species 0 … 3's second-layer matrix [64, 64]. -/
def w2blk0 (W2 : (⟨S4x64x64, .f32⟩ : BufTy).Contents (Elt F)) : (⟨S64x64, .f32⟩ : BufTy).Contents (Elt F) :=
  shapeCast S64x64 (extractStridedSlice S1x64x64 ![0, 0, 0] W2 slices_S4x64x64_S1x64x64_0_0_0) shapeCasts_S1x64x64_S64x64
def w2blk1 (W2 : (⟨S4x64x64, .f32⟩ : BufTy).Contents (Elt F)) : (⟨S64x64, .f32⟩ : BufTy).Contents (Elt F) :=
  shapeCast S64x64 (extractStridedSlice S1x64x64 ![1, 0, 0] W2 slices_S4x64x64_S1x64x64_1_0_0) shapeCasts_S1x64x64_S64x64
def w2blk2 (W2 : (⟨S4x64x64, .f32⟩ : BufTy).Contents (Elt F)) : (⟨S64x64, .f32⟩ : BufTy).Contents (Elt F) :=
  shapeCast S64x64 (extractStridedSlice S1x64x64 ![2, 0, 0] W2 slices_S4x64x64_S1x64x64_2_0_0) shapeCasts_S1x64x64_S64x64
def w2blk3 (W2 : (⟨S4x64x64, .f32⟩ : BufTy).Contents (Elt F)) : (⟨S64x64, .f32⟩ : BufTy).Contents (Elt F) :=
  shapeCast S64x64 (extractStridedSlice S1x64x64 ![3, 0, 0] W2 slices_S4x64x64_S1x64x64_3_0_0) shapeCasts_S1x64x64_S64x64

/-- The second layer's block-diagonal matrix before its change of float format: a zero matrix [256, 256] into which
    species `s`'s matrix is written at rows and columns `64 s … 64 s + 63`, for `s = 0, 1, 2, 3` in turn. -/
def w2diag (W2 : (⟨S4x64x64, .f32⟩ : BufTy).Contents (Elt F)) : (⟨S256x256, .f32⟩ : BufTy).Contents (Elt F) :=
  Host.scatter scatter_S256x256_S2_S64x64_01_n_01_0 (fun _ b => b)
    (Host.scatter scatter_S256x256_S2_S64x64_01_n_01_0 (fun _ b => b)
      (Host.scatter scatter_S256x256_S2_S64x64_01_n_01_0 (fun _ b => b)
        (Host.scatter scatter_S256x256_S2_S64x64_01_n_01_0 (fun _ b => b)
          (broadcastInDim S256x256 ![] bcast_S_S256x256 (constant S_ .f32 0x00000000#32 : (⟨S_, .f32⟩ : BufTy).Contents (Elt F)) : (⟨S256x256, .f32⟩ : BufTy).Contents (Elt F))
          (start2 (F := F) 0#32 0#32) (w2blk0 W2))
        (start2 (F := F) 64#32 64#32) (w2blk1 W2))
      (start2 (F := F) 128#32 128#32) (w2blk2 W2))
    (start2 (F := F) 192#32 192#32) (w2blk3 W2)

/-- The second layer's block-diagonal matrix as launched. -/
def w2f (W2 : (⟨S4x64x64, .f32⟩ : BufTy).Contents (Elt F)) : (⟨S256x256, .bf16⟩ : BufTy).Contents (Elt F) :=
  truncf .bf16 (w2diag W2) bitsLt_bf16_f32

/-- Species 0 … 3's read-out vector [64]. -/
def w3blk0 (W3 : (⟨S4x64x1, .f32⟩ : BufTy).Contents (Elt F)) : (⟨S64, .f32⟩ : BufTy).Contents (Elt F) :=
  shapeCast S64 (extractStridedSlice S1x64x1 ![0, 0, 0] W3 slices_S4x64x1_S1x64x1_0_0_0) shapeCasts_S1x64x1_S64
def w3blk1 (W3 : (⟨S4x64x1, .f32⟩ : BufTy).Contents (Elt F)) : (⟨S64, .f32⟩ : BufTy).Contents (Elt F) :=
  shapeCast S64 (extractStridedSlice S1x64x1 ![1, 0, 0] W3 slices_S4x64x1_S1x64x1_1_0_0) shapeCasts_S1x64x1_S64
def w3blk2 (W3 : (⟨S4x64x1, .f32⟩ : BufTy).Contents (Elt F)) : (⟨S64, .f32⟩ : BufTy).Contents (Elt F) :=
  shapeCast S64 (extractStridedSlice S1x64x1 ![2, 0, 0] W3 slices_S4x64x1_S1x64x1_2_0_0) shapeCasts_S1x64x1_S64
def w3blk3 (W3 : (⟨S4x64x1, .f32⟩ : BufTy).Contents (Elt F)) : (⟨S64, .f32⟩ : BufTy).Contents (Elt F) :=
  shapeCast S64 (extractStridedSlice S1x64x1 ![3, 0, 0] W3 slices_S4x64x1_S1x64x1_3_0_0) shapeCasts_S1x64x1_S64

/-- The read-out's block-diagonal matrix before its change of float format: a zero matrix [256, 4] into which species
    `s`'s vector is written at rows `64 s … 64 s + 63` of column `s`. -/
def w3diag (W3 : (⟨S4x64x1, .f32⟩ : BufTy).Contents (Elt F)) : (⟨S256x4, .f32⟩ : BufTy).Contents (Elt F) :=
  Host.scatter scatter_S256x4_S2_S64_0_1_01_0 (fun _ b => b)
    (Host.scatter scatter_S256x4_S2_S64_0_1_01_0 (fun _ b => b)
      (Host.scatter scatter_S256x4_S2_S64_0_1_01_0 (fun _ b => b)
        (Host.scatter scatter_S256x4_S2_S64_0_1_01_0 (fun _ b => b)
          (broadcastInDim S256x4 ![] bcast_S_S256x4 (constant S_ .f32 0x00000000#32 : (⟨S_, .f32⟩ : BufTy).Contents (Elt F)) : (⟨S256x4, .f32⟩ : BufTy).Contents (Elt F))
          (start2 (F := F) 0#32 0#32) (w3blk0 W3))
        (start2 (F := F) 64#32 1#32) (w3blk1 W3))
      (start2 (F := F) 128#32 2#32) (w3blk2 W3))
    (start2 (F := F) 192#32 3#32) (w3blk3 W3)

/-- The read-out's block-diagonal matrix as launched. -/
def w3f (W3 : (⟨S4x64x1, .f32⟩ : BufTy).Contents (Elt F)) : (⟨S256x4, .bf16⟩ : BufTy).Contents (Elt F) :=
  truncf .bf16 (w3diag W3) bitsLt_bf16_f32

end Cert.KernelIdeal.Operands

end
-- ==== Proof.KEntry.lean ====
/-
  The arrays the kernel's region is launched on, as functions of the argument arrays: what each window's array holds
  once the host operations before the launch have run — the padded features and species column, the first layer's
  weights side by side, the two block-diagonal matrices, the flattened biases (Proof/KOperands.lean's definitions).
  Each is read off the list of host operations one operation at a time: the operation that wrote the buffer gives its
  function of its operands' buffers, every other operation leaves the buffer as it was.
-/
import proofs.«120765_j59296318489074_2_alg».proof.Proof.Gen.KernelIdeal.Frame
import proofs.«120765_j59296318489074_2_alg».proof.Proof.KOperands
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Read one buffer after a list of host operations: one `simp` pass over the operations' result lemmas, then the same
    lemmas by `rw` where the pass cannot reach (inside the operand lists of a `concatenate`). -/
local macro "host_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

set_option maxHeartbeats 50000000 in
/-- Window 0's array: the padded features. -/
theorem V_v0 (c : Dev nD) : (V m c main_v0 : S1003520x128.Idx → EReal) = Operands.xpad (F := Ideal) (m ((c : Thread nD τ).loc main_arg0)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 1's array: the padded species column. -/
theorem V_v2 (c : Dev nD) : (V m c main_v2 : S1003520x1.Idx → BitVec 32) = Operands.sppad (F := Ideal) (m ((c : Thread nD τ).loc main_arg1)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 2's array: the first layer's weights side by side. -/
theorem V_v58 (c : Dev nD) : (V m c main_v58 : S128x256.Idx → EReal) = Operands.w1f (F := Ideal) (m ((c : Thread nD τ).loc main_arg2)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 3's array: the first layer's biases, flattened. -/
theorem V_v5 (c : Dev nD) : (V m c main_v5 : S256.Idx → EReal) = Operands.bflat (F := Ideal) (m ((c : Thread nD τ).loc main_arg3)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 4's array: the second layer's block-diagonal matrix. -/
theorem V_v59 (c : Dev nD) : (V m c main_v59 : S256x256.Idx → EReal) = Operands.w2f (F := Ideal) (m ((c : Thread nD τ).loc main_arg4)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 5's array: the second layer's biases, flattened. -/
theorem V_v31 (c : Dev nD) : (V m c main_v31 : S256.Idx → EReal) = Operands.bflat (F := Ideal) (m ((c : Thread nD τ).loc main_arg5)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 6's array: the read-out's block-diagonal matrix. -/
theorem V_v60 (c : Dev nD) : (V m c main_v60 : S256x4.Idx → EReal) = Operands.w3f (F := Ideal) (m ((c : Thread nD τ).loc main_arg6)) := by
  dsimp only [V, V0]
  simp only [hostOps0, hostOps0_1, hostOps0_2, hostOps0_3, hostOps0_4, List.flatten_cons, List.flatten_nil, List.append_nil, List.cons_append, List.nil_append]
  host_results
  rfl

set_option maxHeartbeats 50000000 in
/-- Window 7's array: the read-out's biases, flattened. -/
theorem V_v57 (c : Dev nD) : (V m c main_v57 : S4.Idx → EReal) = Operands.b3flat (F := Ideal) (m ((c : Thread nD τ).loc main_arg7)) := by
  dsimp only [V, V0]
  simp only [hostOps0, hostOps0_1, hostOps0_2, hostOps0_3, hostOps0_4, List.flatten_cons, List.flatten_nil, List.append_nil, List.cons_append, List.nil_append]
  host_results
  rfl

end Cert.KernelIdeal.KValue

end
-- ==== Proof.Fused.lean ====
/-
  The network as the kernel evaluates it: the four species FUSED into one network of width 256. Position `64 s + h` of
  a 256-vector belongs to species `s`; the second and third weight matrices are block diagonal, so a unit of species
  `s` only ever meets species `s`'s weights: every other product has a zero factor, and a sum over the 256 positions
  is the sum over the 64 positions of the one block that is not zero. The atom's energy is read out of the four
  columns by a one-hot product: column `s` times one when the species word is `s`, times zero otherwise, summed —
  the column of the species the word names, or zero when it names none. Both laws hold on all of the extended reals:
  `x · 0 = 0`, `x · 1 = x` and `x + 0 = x` need no finiteness.
-/
import proofs.«120765_j59296318489074_2_alg».proof.Proof.Spec
import Mathlib.Algebra.BigOperators.Fin
import Mathlib.Data.Fintype.BigOperators

noncomputable section

namespace Cert.Fused

open Idealize.ShloMosaic Idealize.ShloMosaic.ValueIdx

/-- Position `64 s + h` of a 256-vector: unit `h` of species `s`. -/
def cat (s : Fin 4) (h : Fin 64) : Fin 256 := ⟨64 * s.val + h.val, by have := s.isLt; have := h.isLt; omega⟩

theorem cat_val (s : Fin 4) (h : Fin 64) : (cat s h).val = 64 * s.val + h.val := rfl

/-- Every position is unit `k % 64` of species `k / 64`. -/
def catEquiv : Fin 4 × Fin 64 ≃ Fin 256 where
  toFun p := cat p.1 p.2
  invFun k := (⟨k.val / 64, by have := k.isLt; omega⟩, ⟨k.val % 64, by omega⟩)
  left_inv p := by
    obtain ⟨s, h⟩ := p
    have := s.isLt; have := h.isLt
    refine Prod.ext (Fin.ext ?_) (Fin.ext ?_)
    · show (64 * s.val + h.val) / 64 = s.val; omega
    · show (64 * s.val + h.val) % 64 = h.val; omega
  right_inv k := by
    refine Fin.ext ?_
    show 64 * (k.val / 64) + k.val % 64 = k.val; omega

/-- A sum over the 256 positions, species by species. -/
theorem sum_cat (g : Fin 256 → EReal) : ∑ k, g k = ∑ s : Fin 4, ∑ h : Fin 64, g (cat s h) := by
  rw [← catEquiv.sum_comp g, Fintype.sum_prod_type]; rfl

/-- Against a vector that is zero outside species `s`'s block, only that block's 64 products remain. -/
theorem sum_block (a b : Fin 256 → EReal) (w : Fin 64 → EReal) (s : Fin 4)
    (hb : ∀ (s' : Fin 4) (k : Fin 64), b (cat s' k) = if s' = s then w k else 0) :
    ∑ k, a k * b k = ∑ h : Fin 64, a (cat s h) * w h := by
  rw [sum_cat, Finset.sum_eq_single s]
  · exact Finset.sum_congr rfl fun h _ => by rw [hb, if_pos rfl]
  · intro s' _ hne
    exact Finset.sum_eq_zero fun h _ => by rw [hb, if_neg hne, mul_zero]
  · intro h; exact absurd (Finset.mem_univ s) h

/-- Position `j` of the fused first hidden layer. -/
def hid1 (xr : Fin 128 → EReal) (w1 : (⟨2, ![128, 256]⟩ : Shape).Idx → EReal) (c1 : (⟨1, ![256]⟩ : Shape).Idx → EReal)
    (j : Fin 256) : EReal :=
  Ideal.tanh ((∑ f : Fin 128, xr f * w1 (ix2 f j)) + c1 (ix1 j))

/-- Position `j` of the fused second hidden layer. -/
def hid2 (xr : Fin 128 → EReal) (w1 : (⟨2, ![128, 256]⟩ : Shape).Idx → EReal) (c1 : (⟨1, ![256]⟩ : Shape).Idx → EReal)
    (w2 : (⟨2, ![256, 256]⟩ : Shape).Idx → EReal) (c2 : (⟨1, ![256]⟩ : Shape).Idx → EReal) (j : Fin 256) : EReal :=
  Ideal.tanh ((∑ k : Fin 256, hid1 xr w1 c1 k * w2 (ix2 k j)) + c2 (ix1 j))

/-- Column `s` of the fused read-out. -/
def out (xr : Fin 128 → EReal) (w1 : (⟨2, ![128, 256]⟩ : Shape).Idx → EReal) (c1 : (⟨1, ![256]⟩ : Shape).Idx → EReal)
    (w2 : (⟨2, ![256, 256]⟩ : Shape).Idx → EReal) (c2 : (⟨1, ![256]⟩ : Shape).Idx → EReal)
    (w3 : (⟨2, ![256, 4]⟩ : Shape).Idx → EReal) (c3 : (⟨1, ![4]⟩ : Shape).Idx → EReal) (s : Fin 4) : EReal :=
  (∑ k : Fin 256, hid2 xr w1 c1 w2 c2 k * w3 (ix2 k s)) + c3 (ix1 s)

/-- One when the species word is `s`, zero otherwise: the comparison's bit widened to a word and read as a number. -/
def onehot (sp : BitVec 32) (s : Fin 4) : EReal :=
  ((((IntOp.cmpi .eq sp (BitVec.ofNat 32 s.val)).setWidth 32).toInt : ℝ) : EReal)

/-- The atom's energy as the kernel forms it: the four columns against the one-hot row, summed. -/
def energy (xr : Fin 128 → EReal) (sp : BitVec 32) (w1 : (⟨2, ![128, 256]⟩ : Shape).Idx → EReal) (c1 : (⟨1, ![256]⟩ : Shape).Idx → EReal)
    (w2 : (⟨2, ![256, 256]⟩ : Shape).Idx → EReal) (c2 : (⟨1, ![256]⟩ : Shape).Idx → EReal)
    (w3 : (⟨2, ![256, 4]⟩ : Shape).Idx → EReal) (c3 : (⟨1, ![4]⟩ : Shape).Idx → EReal) : EReal :=
  ∑ s : Fin 4, out xr w1 c1 w2 c2 w3 c3 s * onehot sp s

/-- What it means for the fused weights to be the four species' weights laid side by side and block-diagonally. -/
structure IsFused (W1 : (⟨3, ![4, 128, 64]⟩ : Shape).Idx → EReal) (b1 : (⟨2, ![4, 64]⟩ : Shape).Idx → EReal)
    (W2 : (⟨3, ![4, 64, 64]⟩ : Shape).Idx → EReal) (b2 : (⟨2, ![4, 64]⟩ : Shape).Idx → EReal)
    (W3 : (⟨3, ![4, 64, 1]⟩ : Shape).Idx → EReal) (b3 : (⟨2, ![4, 1]⟩ : Shape).Idx → EReal)
    (w1 : (⟨2, ![128, 256]⟩ : Shape).Idx → EReal) (c1 : (⟨1, ![256]⟩ : Shape).Idx → EReal)
    (w2 : (⟨2, ![256, 256]⟩ : Shape).Idx → EReal) (c2 : (⟨1, ![256]⟩ : Shape).Idx → EReal)
    (w3 : (⟨2, ![256, 4]⟩ : Shape).Idx → EReal) (c3 : (⟨1, ![4]⟩ : Shape).Idx → EReal) : Prop where
  h1 : ∀ (f : Fin 128) (s : Fin 4) (h : Fin 64), w1 (ix2 f (cat s h)) = W1 (ix3 s f h)
  hc1 : ∀ (s : Fin 4) (h : Fin 64), c1 (ix1 (cat s h)) = b1 (ix2 s h)
  h2 : ∀ (s' s : Fin 4) (k h : Fin 64), w2 (ix2 (cat s' k) (cat s h)) = if s' = s then W2 (ix3 s k h) else 0
  hc2 : ∀ (s : Fin 4) (h : Fin 64), c2 (ix1 (cat s h)) = b2 (ix2 s h)
  h3 : ∀ (s' s : Fin 4) (k : Fin 64), w3 (ix2 (cat s' k) s) = if s' = s then W3 (ix3 s k 0) else 0
  hc3 : ∀ s : Fin 4, c3 (ix1 s) = b3 (ix2 s 0)

section
variable {W1 : (⟨3, ![4, 128, 64]⟩ : Shape).Idx → EReal} {b1 : (⟨2, ![4, 64]⟩ : Shape).Idx → EReal}
  {W2 : (⟨3, ![4, 64, 64]⟩ : Shape).Idx → EReal} {b2 : (⟨2, ![4, 64]⟩ : Shape).Idx → EReal}
  {W3 : (⟨3, ![4, 64, 1]⟩ : Shape).Idx → EReal} {b3 : (⟨2, ![4, 1]⟩ : Shape).Idx → EReal}
  {w1 : (⟨2, ![128, 256]⟩ : Shape).Idx → EReal} {c1 : (⟨1, ![256]⟩ : Shape).Idx → EReal}
  {w2 : (⟨2, ![256, 256]⟩ : Shape).Idx → EReal} {c2 : (⟨1, ![256]⟩ : Shape).Idx → EReal}
  {w3 : (⟨2, ![256, 4]⟩ : Shape).Idx → EReal} {c3 : (⟨1, ![4]⟩ : Shape).Idx → EReal}

/-- Position `64 s + h` of the fused first layer is unit `h` of species `s`'s. -/
theorem hid1_cat (H : IsFused W1 b1 W2 b2 W3 b3 w1 c1 w2 c2 w3 c3) (xr : Fin 128 → EReal) (s : Fin 4) (h : Fin 64) :
    hid1 xr w1 c1 (cat s h) = Spec.hid1 xr W1 b1 s h := by
  unfold hid1 Spec.hid1
  rw [H.hc1, Finset.sum_congr rfl fun f _ => by rw [H.h1]]

/-- Position `64 s + h` of the fused second layer is unit `h` of species `s`'s: the other species' 192 products vanish. -/
theorem hid2_cat (H : IsFused W1 b1 W2 b2 W3 b3 w1 c1 w2 c2 w3 c3) (xr : Fin 128 → EReal) (s : Fin 4) (h : Fin 64) :
    hid2 xr w1 c1 w2 c2 (cat s h) = Spec.hid2 xr W1 b1 W2 b2 s h := by
  unfold hid2 Spec.hid2
  rw [H.hc2, sum_block (fun k => hid1 xr w1 c1 k) (fun k => w2 (ix2 k (cat s h))) (fun k => W2 (ix3 s k h)) s
    (fun s' k => H.h2 s' s k h), Finset.sum_congr rfl fun k _ => by rw [hid1_cat H]]

/-- Column `s` of the fused read-out is species `s`'s read-out. -/
theorem out_eq (H : IsFused W1 b1 W2 b2 W3 b3 w1 c1 w2 c2 w3 c3) (xr : Fin 128 → EReal) (s : Fin 4) :
    out xr w1 c1 w2 c2 w3 c3 s = Spec.energy xr W1 b1 W2 b2 W3 b3 s := by
  unfold out Spec.energy
  rw [H.hc3, sum_block (fun k => hid2 xr w1 c1 w2 c2 k) (fun k => w3 (ix2 k s)) (fun k => W3 (ix3 s k 0)) s
    (fun s' k => H.h3 s' s k), Finset.sum_congr rfl fun k _ => by rw [hid2_cat H]]
end

/-- The comparison's bit, widened and read as a number, is one exactly when the two words are equal. -/
theorem onehot_eq (sp : BitVec 32) (s : Fin 4) : onehot sp s = if sp = BitVec.ofNat 32 s.val then 1 else 0 := by
  unfold onehot IntOp.cmpi
  by_cases h : sp = BitVec.ofNat 32 s.val
  · rw [if_pos h]; subst h; simp
  · rw [if_neg h]
    have : (sp == BitVec.ofNat 32 s.val) = false := by simpa using h
    simp [this]

theorem select_cmpi_eq {α : Type} (a b : BitVec 32) (x y : α) :
    Scalar.select (IntOp.cmpi .eq a b) x y = if a = b then x else y := by
  unfold Scalar.select IntOp.cmpi
  by_cases h : a = b
  · subst h; simp
  · have : (a == b) = false := by simpa using h
    simp [this, h]

/-- The one-hot read-out is the selection: the column of the species the word names, zero when it names none. -/
theorem sum_onehot_eq_pick (sp : BitVec 32) (e : Fin 4 → EReal) : ∑ s : Fin 4, e s * onehot sp s = Spec.pick sp e := by
  rw [Fin.sum_univ_four]
  simp only [onehot_eq, Spec.pick, select_cmpi_eq]
  have e0 : BitVec.ofNat 32 (0 : Fin 4).val = 0#32 := rfl
  have e1 : BitVec.ofNat 32 (1 : Fin 4).val = 1#32 := rfl
  have e2 : BitVec.ofNat 32 (2 : Fin 4).val = 2#32 := rfl
  have e3 : BitVec.ofNat 32 (3 : Fin 4).val = 3#32 := rfl
  rw [e0, e1, e2, e3]
  by_cases h3 : sp = 3#32
  · subst h3; simp
  by_cases h2 : sp = 2#32
  · subst h2; simp
  by_cases h1 : sp = 1#32
  · subst h1; simp
  by_cases h0 : sp = 0#32
  · subst h0; simp
  simp [h0, h1, h2, h3]

section
variable {W1 : (⟨3, ![4, 128, 64]⟩ : Shape).Idx → EReal} {b1 : (⟨2, ![4, 64]⟩ : Shape).Idx → EReal}
  {W2 : (⟨3, ![4, 64, 64]⟩ : Shape).Idx → EReal} {b2 : (⟨2, ![4, 64]⟩ : Shape).Idx → EReal}
  {W3 : (⟨3, ![4, 64, 1]⟩ : Shape).Idx → EReal} {b3 : (⟨2, ![4, 1]⟩ : Shape).Idx → EReal}
  {w1 : (⟨2, ![128, 256]⟩ : Shape).Idx → EReal} {c1 : (⟨1, ![256]⟩ : Shape).Idx → EReal}
  {w2 : (⟨2, ![256, 256]⟩ : Shape).Idx → EReal} {c2 : (⟨1, ![256]⟩ : Shape).Idx → EReal}
  {w3 : (⟨2, ![256, 4]⟩ : Shape).Idx → EReal} {c3 : (⟨1, ![4]⟩ : Shape).Idx → EReal}

/-- THE LAW that joins the two programs: the fused network's energy of a row is the specification's. -/
theorem energy_eq (H : IsFused W1 b1 W2 b2 W3 b3 w1 c1 w2 c2 w3 c3) (xr : Fin 128 → EReal) (sp : BitVec 32) :
    energy xr sp w1 c1 w2 c2 w3 c3 = Spec.pick sp (Spec.energy xr W1 b1 W2 b2 W3 b3) := by
  unfold energy
  rw [sum_onehot_eq_pick sp (out xr w1 c1 w2 c2 w3 c3)]
  exact congrArg (Spec.pick sp) (funext fun s => out_eq H xr s)
end

end Cert.Fused

end
-- ==== Proof.KOperandsAt.lean ====
/-
  The launched operands read at an index.

  Each array the kernel's windows are launched on is a re-laying of one argument array, so each of its entries is one
  entry of that argument. Column `64 s + h` of the first layer's fused weights is species `s`'s column `h`: the
  transposition swaps the species axis with the feature axis, and flattening `(s, h)` with 64 entries per species is
  `64 s + h`. The flattened biases are read the same way. The padded features and species words are the arguments
  themselves on the first 1,000,000 rows. A change of float format is the identity on the extended reals. With the
  block-diagonal second and third layers read the same way (two hypotheses here), the launched weights are the four
  species' weights fused in the sense of `Fused.IsFused`.
-/
import proofs.«120765_j59296318489074_2_alg».proof.Proof.KOperands
import proofs.«120765_j59296318489074_2_alg».proof.Proof.Fused
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Operands

open Cert.KernelIdeal Cert.KernelIdeal.Facts₀ Cert.KernelIdeal.Facts Idealize.ShloMosaic Idealize.ShloMosaic.ValueIdx

/-- Column `64 s + h` of the fused first-layer weights is species `s`'s column `h`: position `f * 256 + (64 s + h)`
    of the flattened array is position `(f * 4 + s) * 64 + h` of the transposed one, whose entry `(f, s, h)` is the
    stacked array's `(s, f, h)`. -/
theorem w1f_apply (W1 : (⟨S4x128x64, .f32⟩ : BufTy).Contents (Elt Ideal)) (f : Fin 128) (s : Fin 4) (h : Fin 64) :
    w1f (F := Ideal) W1 (ix2 f (Cert.Fused.cat s h)) = W1 (ix3 s f h) := by
  have hs := s.isLt
  have hh := h.isLt
  unfold w1f
  rw [truncf_apply]
  refine (shapeCast_apply _ _ (ix2 f (Cert.Fused.cat s h)) (ix3 f s h) ?_).trans ?_
  · rw [Shape.rowMajor_val_three, Shape.rowMajor_val_two]
    show (f.val * 4 + s.val) * 64 + h.val = f.val * 256 + (64 * s.val + h.val)
    omega
  · exact transpose_apply _ _ _ _ (ix3 s f h) (fun b => match b with | ⟨0, _⟩ => rfl | ⟨1, _⟩ => rfl | ⟨2, _⟩ => rfl)

/-- Entry `64 s + h` of a flattened bias is entry `(s, h)` of the stacked one. -/
theorem bflat_apply (b : (⟨S4x64, .f32⟩ : BufTy).Contents (Elt Ideal)) (s : Fin 4) (h : Fin 64) :
    bflat (F := Ideal) b (ix1 (Cert.Fused.cat s h)) = b (ix2 s h) := by
  unfold bflat
  refine shapeCast_apply _ _ (ix1 (Cert.Fused.cat s h)) (ix2 s h) ?_
  rw [Shape.rowMajor_val_two, Shape.rowMajor_val_one]
  show s.val * 64 + h.val = 64 * s.val + h.val
  omega

/-- Entry `s` of the flattened read-out bias is entry `(s, 0)` of the stacked one. -/
theorem b3flat_apply (b : (⟨S4x1, .f32⟩ : BufTy).Contents (Elt Ideal)) (s : Fin 4) :
    b3flat (F := Ideal) b (ix1 s) = b (ix2 s (0 : Fin 1)) := by
  unfold b3flat
  refine shapeCast_apply _ _ (ix1 s) (ix2 s (0 : Fin 1)) ?_
  rw [Shape.rowMajor_val_two, Shape.rowMajor_val_one]
  show s.val * 1 + 0 = s.val
  omega

/-- On the first 1,000,000 rows the padded features are the features. -/
theorem xpad_apply (x : (⟨S1000000x128, .f32⟩ : BufTy).Contents (Elt Ideal)) (r : Fin 1003520) (hr : r.val < 1000000)
    (f : Fin 128) : xpad (F := Ideal) x (ix2 r f) = x (ix2 (⟨r.val, hr⟩ : Fin 1000000) f) := by
  unfold xpad
  exact pad_apply_of_inside _ _ _ x _ _ _ (ix2 r f) (ix2 (⟨r.val, hr⟩ : Fin 1000000) f) (by
    intro a
    match a with
    | ⟨0, _⟩ => show r.val = 0 + r.val * (0 + 1); omega
    | ⟨1, _⟩ => show f.val = 0 + f.val * (0 + 1); omega)

/-- On the first 1,000,000 rows the padded column of species words is the species words. -/
theorem sppad_apply (sp : (⟨S1000000, .i32⟩ : BufTy).Contents (Elt Ideal)) (r : Fin 1003520) (hr : r.val < 1000000) :
    sppad (F := Ideal) sp (ix2 r (0 : Fin 1)) = sp (ix1 (⟨r.val, hr⟩ : Fin 1000000)) := by
  unfold sppad
  refine (shapeCast_apply _ _ (ix2 r (0 : Fin 1)) (ix1 r) ?_).trans ?_
  · rw [Shape.rowMajor_val_one, Shape.rowMajor_val_two]
    show r.val = r.val * 1 + 0
    omega
  · exact pad_apply_of_inside _ _ _ sp _ _ _ (ix1 r) (ix1 (⟨r.val, hr⟩ : Fin 1000000)) (by
      intro a
      match a with
      | ⟨0, _⟩ => show r.val = 0 + r.val * (0 + 1); omega)

/-- The launched weights and biases are the four species' fused, given that the two block-diagonal matrices are read
    as blocks. -/
theorem isFused_of (W1 : (⟨S4x128x64, .f32⟩ : BufTy).Contents (Elt Ideal)) (b1 : (⟨S4x64, .f32⟩ : BufTy).Contents (Elt Ideal))
    (W2 : (⟨S4x64x64, .f32⟩ : BufTy).Contents (Elt Ideal)) (b2 : (⟨S4x64, .f32⟩ : BufTy).Contents (Elt Ideal))
    (W3 : (⟨S4x64x1, .f32⟩ : BufTy).Contents (Elt Ideal)) (b3 : (⟨S4x1, .f32⟩ : BufTy).Contents (Elt Ideal))
    (h2 : ∀ (s' s : Fin 4) (k h : Fin 64), w2diag (F := Ideal) W2 (ix2 (Cert.Fused.cat s' k) (Cert.Fused.cat s h))
      = if s' = s then W2 (ix3 s k h) else 0)
    (h3 : ∀ (s' s : Fin 4) (k : Fin 64), w3diag (F := Ideal) W3 (ix2 (Cert.Fused.cat s' k) s)
      = if s' = s then W3 (ix3 s k 0) else 0) :
    Cert.Fused.IsFused W1 b1 W2 b2 W3 b3 (w1f (F := Ideal) W1) (bflat (F := Ideal) b1) (w2f (F := Ideal) W2)
      (bflat (F := Ideal) b2) (w3f (F := Ideal) W3) (b3flat (F := Ideal) b3) where
  h1 := fun f s h => w1f_apply W1 f s h
  hc1 := fun s h => bflat_apply b1 s h
  h2 := fun s' s k h => by
    unfold w2f
    rw [truncf_apply]
    exact h2 s' s k h
  hc2 := fun s h => bflat_apply b2 s h
  h3 := fun s' s k => by
    unfold w3f
    rw [truncf_apply]
    exact h3 s' s k
  hc3 := fun s => b3flat_apply b3 s

end Cert.KernelIdeal.Operands

end
-- ==== Proof.LibScatterSet.lean ====
/-
  A `stablehlo.scatter` whose body returns the update, READ AT AN INDEX, when every update index
  lands inside the operand and no two land on the same element.

  The operation is a left fold over the update indices in row-major order; each step replaces the element at the update's
  result index by the update's element. If the result index of update `j` is `φ j` for an INJECTIVE `φ`, the result is
  the operand with the element at `φ j` set to update `j`'s, for every `j`:

  * (hit) at `φ j` the result holds the update's element `upd j`: the step for `j` writes it, and no later step touches
    that element, because `φ` is injective and the fold meets every update index once;
  * (miss) at an index no `φ j` equals, the result holds the operand's element: no step touches it.

  Both are first proved for a fold, over any list, of any step function that writes `v n` at `ψ n` and leaves every other
  element alone, by induction on the list with the accumulator general.
-/
import Idealize.ShloMosaic.PureOps.ShapeOps

namespace Idealize.ShloMosaic.ScatterSet

section Fold
variable {ι β α : Type} (step : (β → α) → ι → (β → α)) (ψ : ι → β) (v : ι → α)

/-- A fold of steps that each write one element leaves alone every element none of them writes. -/
theorem foldl_miss (hmiss : ∀ r n i', i' ≠ ψ n → step r n i' = r i') (l : List ι) (x : β → α) (i' : β)
    (h : ∀ n ∈ l, i' ≠ ψ n) : l.foldl step x i' = x i' := by
  induction l generalizing x with
  | nil => rfl
  | cons m l ih =>
    rw [List.foldl_cons, ih (step x m) fun n hn => h n (List.mem_cons_of_mem m hn)]
    exact hmiss x m i' (h m List.mem_cons_self)

/-- A fold of steps that each write one element, over a list without repeats on which the written positions are pairwise
    distinct, holds at the position step `n` writes the value step `n` wrote. -/
theorem foldl_hit (hhit : ∀ r n, step r n (ψ n) = v n) (hmiss : ∀ r n i', i' ≠ ψ n → step r n i' = r i')
    (l : List ι) (hl : l.Nodup) (hinj : ∀ n ∈ l, ∀ m ∈ l, ψ n = ψ m → n = m) (x : β → α) (n : ι) (hn : n ∈ l) :
    l.foldl step x (ψ n) = v n := by
  induction l generalizing x with
  | nil => exact absurd hn List.not_mem_nil
  | cons m l ih =>
    rw [List.foldl_cons]
    have hnd := List.nodup_cons.1 hl
    rcases List.mem_cons.1 hn with rfl | hn'
    · -- the first step writes the value; the later ones write elsewhere
      rw [foldl_miss step ψ hmiss l (step x n) (ψ n) fun k hk hψ =>
        hnd.1 (hinj n List.mem_cons_self k (List.mem_cons_of_mem n hk) hψ ▸ hk)]
      exact hhit x n
    · exact ih hnd.2 (fun a ha b hb => hinj a (List.mem_cons_of_mem m ha) b (List.mem_cons_of_mem m hb)) (step x m) hn'

end Fold

section Scatter
variable {s si u : Shape} {α : Type} {w : Nat}

/-- One step of the scatter whose body returns the update, when the update's result index is known. -/
private theorem step_eq (d : ScatterDims s si u) (idx : IVec si w) (upd : u.Idx → α) (φ : u.Idx → s.Idx)
    (hφ : ∀ j, d.resultIdx? j idx = some (φ j)) (r : s.Idx → α) (n : Fin u.numel) :
    (match d.resultIdx? (u.rowMajor.symm n) idx with
      | some i => fun i' => if i' = i then (fun _ b => b) (r i) (upd (u.rowMajor.symm n)) else r i'
      | none => r) = fun i' => if i' = φ (u.rowMajor.symm n) then upd (u.rowMajor.symm n) else r i' := by
  rw [hφ]

/-- (hit) Where update `j` lands, the result of a scatter whose body returns the update holds update `j`'s element,
    when every update lands inside the operand and no two land on the same element. -/
theorem scatter_set_hit (d : ScatterDims s si u) (x : s.Idx → α) (idx : IVec si w) (upd : u.Idx → α) (φ : u.Idx → s.Idx)
    (hφ : ∀ j, d.resultIdx? j idx = some (φ j)) (hinj : Function.Injective φ) (j : u.Idx) :
    Host.scatter d (fun _ b => b) x idx upd (φ j) = upd j := by
  unfold Host.scatter
  have h := foldl_hit
    (fun (r : s.Idx → α) (n : Fin u.numel) =>
      match d.resultIdx? (u.rowMajor.symm n) idx with
      | some i => fun i' => if i' = i then (fun _ b => b) (r i) (upd (u.rowMajor.symm n)) else r i'
      | none => r)
    (fun n => φ (u.rowMajor.symm n)) (fun n => upd (u.rowMajor.symm n))
    (fun r n => by rw [step_eq d idx upd φ hφ r n]; exact if_pos rfl)
    (fun r n i' hi => by rw [step_eq d idx upd φ hφ r n]; exact if_neg hi)
    (List.finRange u.numel) (List.nodup_finRange _)
    (fun a _ b _ hab => u.rowMajor.symm.injective (hinj hab)) x (u.rowMajor j) (List.mem_finRange _)
  simp only [Equiv.symm_apply_apply] at h
  exact h

/-- (miss) Where no update lands, the result of a scatter whose body returns the update holds the operand's element. -/
theorem scatter_set_miss (d : ScatterDims s si u) (x : s.Idx → α) (idx : IVec si w) (upd : u.Idx → α) (φ : u.Idx → s.Idx)
    (hφ : ∀ j, d.resultIdx? j idx = some (φ j)) (i' : s.Idx) (hmiss : ∀ j, φ j ≠ i') :
    Host.scatter d (fun _ b => b) x idx upd i' = x i' := by
  unfold Host.scatter
  exact foldl_miss
    (fun (r : s.Idx → α) (n : Fin u.numel) =>
      match d.resultIdx? (u.rowMajor.symm n) idx with
      | some i => fun i' => if i' = i then (fun _ b => b) (r i) (upd (u.rowMajor.symm n)) else r i'
      | none => r)
    (fun n => φ (u.rowMajor.symm n))
    (fun r n i' hi => by rw [step_eq d idx upd φ hφ r n]; exact if_neg hi)
    (List.finRange u.numel) x i' (fun n _ h => hmiss _ h.symm)

end Scatter

end Idealize.ShloMosaic.ScatterSet
-- ==== Proof.BlockDiag.lean ====
/-
  The two BLOCK-DIAGONAL weight matrices read at an index.

  Each is a zero matrix into which four scatters with ONE start index each write one block: scatter number `t`
  (`t = 0, 1, 2, 3`, innermost first) of the second layer has start `(64 t, 64 t)` and writes update element `(p, q)` at
  `(64 t + p, 64 t + q)`; of the read-out it has start `(64 t, t)` and writes update element `p` at `(64 t + p, t)`. The
  map from update index to operand index is injective, every image is inside the matrix, and an operand index is hit
  by scatter `t` exactly when its row is in `64 t … 64 t + 63` and its column is too (second layer) or is `t` (read-out).
  Hence at row `64 s' + k` and column `64 s + h` (resp. column `s`): when `s' = s` scatter `s` hits with update element
  `(k, h)` (resp. `k`) — species `s`'s weight, by the slice and the reshape read at an index — and the later scatters miss;
  when `s' ≠ s` all four miss and the entry is the zero matrix's, the extended real `0`.
-/
import proofs.«120765_j59296318489074_2_alg».proof.Proof.KOperands
import proofs.«120765_j59296318489074_2_alg».proof.Proof.Fused
import proofs.«120765_j59296318489074_2_alg».proof.Proof.LibScatterSet
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Operands

open Cert.KernelIdeal Cert.KernelIdeal.Facts₀ Cert.KernelIdeal.Facts Idealize.ShloMosaic Idealize.ShloMosaic.ValueIdx
open Idealize.ShloMosaic.ScatterSet

variable {F : FTy → Type} [FloatOps F]

/-! ### The start index and the written blocks, read at an index -/

/-- The start index read at its two positions: the first word, then the second. -/
theorem start2_apply (a b : BitVec 32) (k : S2.Idx) : start2 (F := F) a b k = if (k 0).val = 0 then a else b := by
  unfold start2
  by_cases h : (k 0).val = 0
  · rw [if_pos h]
    exact concatenate_pair_apply_left (t := S2) 0 _ _ concatenates_S1_S1_S2_d0 k rfl (ix1 (0 : Fin 1))
      (fun c => match c with | ⟨0, _⟩ => by show (0 : Nat) = (k 0).val; omega)
  · rw [if_neg h]
    exact concatenate_pair_apply_right (t := S2) 0 _ _ concatenates_S1_S1_S2_d0 k rfl rfl (ix1 (0 : Fin 1))
      (fun c hc => match c with | ⟨0, _⟩ => absurd rfl hc)
      (by have : (k 0).val < 2 := (k 0).isLt; show 0 + 1 = (k 0).val; omega)

theorem start2_apply0 (a b : BitVec 32) : start2 (F := F) a b (ix1 0) = a := by
  rw [start2_apply]; exact if_pos rfl

theorem start2_apply1 (a b : BitVec 32) : start2 (F := F) a b (ix1 1) = b := by
  rw [start2_apply]; exact if_neg (show ¬((1 : Fin 2).val = 0) by decide)

/-- Species `o`'s second-layer matrix: the slice at offset `o` on the species axis, with that axis dropped, at `(k, h)`
    is the weight tensor at `(o, k, h)`. -/
theorem blk2_apply (W2 : (⟨S4x64x64, .f32⟩ : BufTy).Contents (Elt F)) (o : Nat) (ho : o < 4)
    (hsl : S4x64x64.Slices ![o, 0, 0] S1x64x64) (k h : Fin 64) :
    shapeCast S64x64 (extractStridedSlice S1x64x64 ![o, 0, 0] W2 hsl) shapeCasts_S1x64x64_S64x64 (ix2 k h)
      = W2 (ix3 (⟨o, ho⟩ : Fin 4) k h) := by
  refine (shapeCast_apply _ shapeCasts_S1x64x64_S64x64 (ix2 k h) (ix3 (0 : Fin 1) k h) ?_).trans ?_
  · rw [Shape.rowMajor_val_three, Shape.rowMajor_val_two]
    show (0 * 64 + k.val) * 64 + h.val = k.val * 64 + h.val
    omega
  · exact extractStridedSlice_apply ![o, 0, 0] W2 hsl (ix3 (0 : Fin 1) k h) (ix3 (⟨o, ho⟩ : Fin 4) k h) (fun a => match a with
      | ⟨0, _⟩ => by show o = o + 0; omega
      | ⟨1, _⟩ => by show k.val = 0 + k.val; omega
      | ⟨2, _⟩ => by show h.val = 0 + h.val; omega)

/-- Species `o`'s read-out vector: the slice at offset `o` on the species axis, flattened, at `k` is the weight tensor
    at `(o, k, 0)`. -/
theorem blk3_apply (W3 : (⟨S4x64x1, .f32⟩ : BufTy).Contents (Elt F)) (o : Nat) (ho : o < 4)
    (hsl : S4x64x1.Slices ![o, 0, 0] S1x64x1) (k : Fin 64) :
    shapeCast S64 (extractStridedSlice S1x64x1 ![o, 0, 0] W3 hsl) shapeCasts_S1x64x1_S64 (ix1 k)
      = W3 (ix3 (⟨o, ho⟩ : Fin 4) k (0 : Fin 1)) := by
  refine (shapeCast_apply _ shapeCasts_S1x64x1_S64 (ix1 k) (ix3 (0 : Fin 1) k (0 : Fin 1)) ?_).trans ?_
  · rw [Shape.rowMajor_val_three, Shape.rowMajor_val_one]
    show (0 * 64 + k.val) * 1 + 0 = k.val
    omega
  · exact extractStridedSlice_apply ![o, 0, 0] W3 hsl (ix3 (0 : Fin 1) k (0 : Fin 1)) (ix3 (⟨o, ho⟩ : Fin 4) k (0 : Fin 1)) (fun a => match a with
      | ⟨0, _⟩ => by show o = o + 0; omega
      | ⟨1, _⟩ => by show k.val = 0 + k.val; omega
      | ⟨2, _⟩ => by show (0 : Nat) = 0 + 0; omega)

/-! ### Where the updates land: the second layer's scatter (a 64 × 64 window at a two-word start index) -/

section W2
variable (idx : IVec S2 32) (j : S64x64.Idx)

/-- Component `c` of the one start index is read at position `c` of the index vector. -/
theorem siIdx_w2 (c : Fin scatter_S256x256_S2_S64x64_01_n_01_0.scatterDimsToOperandDims.length) :
    scatter_S256x256_S2_S64x64_01_n_01_0.siIdx j c = ix1 ⟨c.val, c.isLt⟩ := by
  funext b
  match b with
  | ⟨0, _⟩ => rfl

theorem start_w2_0 : scatter_S256x256_S2_S64x64_01_n_01_0.start j idx 0 = (idx (ix1 0)).toInt := by
  unfold ScatterDims.start
  rw [dif_pos (show (0 : Fin 2) ∈ scatter_S256x256_S2_S64x64_01_n_01_0.scatterDimsToOperandDims by decide), siIdx_w2]
  rfl

theorem start_w2_1 : scatter_S256x256_S2_S64x64_01_n_01_0.start j idx 1 = (idx (ix1 1)).toInt := by
  unfold ScatterDims.start
  rw [dif_pos (show (1 : Fin 2) ∈ scatter_S256x256_S2_S64x64_01_n_01_0.scatterDimsToOperandDims by decide), siIdx_w2]
  rfl

theorem window_w2_0 : scatter_S256x256_S2_S64x64_01_n_01_0.window j 0 = (j 0).val := by
  unfold ScatterDims.window
  rw [dif_pos (show (0 : Fin 2) ∈ scatter_S256x256_S2_S64x64_01_n_01_0.sKept by decide)]
  rfl

theorem window_w2_1 : scatter_S256x256_S2_S64x64_01_n_01_0.window j 1 = (j 1).val := by
  unfold ScatterDims.window
  rw [dif_pos (show (1 : Fin 2) ∈ scatter_S256x256_S2_S64x64_01_n_01_0.sKept by decide)]
  rfl

end W2

/-- Update element `(p, q)` of a window started at `(A, B)` lands at `(A + p, B + q)`. -/
def land2 (A B : Nat) (hA : A + 64 ≤ 256) (hB : B + 64 ≤ 256) (j : S64x64.Idx) : S256x256.Idx :=
  ix2 (⟨A + (j 0).val, by have : (j 0).val < 64 := (j 0).isLt; omega⟩ : Fin 256)
    (⟨B + (j 1).val, by have : (j 1).val < 64 := (j 1).isLt; omega⟩ : Fin 256)

theorem land2_injective (A B : Nat) (hA : A + 64 ≤ 256) (hB : B + 64 ≤ 256) : Function.Injective (land2 A B hA hB) := by
  intro j j' h
  have h0 : A + (j 0).val = A + (j' 0).val := congrArg Fin.val (congrFun h 0)
  have h1 : B + (j 1).val = B + (j' 1).val := congrArg Fin.val (congrFun h 1)
  funext a
  match a with
  | ⟨0, _⟩ => exact Fin.ext (by show (j 0).val = (j' 0).val; omega)
  | ⟨1, _⟩ => exact Fin.ext (by show (j 1).val = (j' 1).val; omega)

/-- With the start words `A` and `B` and the window inside the matrix, every update element lands, at `land2`. -/
theorem resultIdx_w2 (idx : IVec S2 32) (A B : Nat) (ha : (idx (ix1 0)).toInt = (A : Int)) (hb : (idx (ix1 1)).toInt = (B : Int))
    (hA : A + 64 ≤ 256) (hB : B + 64 ≤ 256) (j : S64x64.Idx) :
    scatter_S256x256_S2_S64x64_01_n_01_0.resultIdx? j idx = some (land2 A B hA hB j) := by
  have hj0 : (j 0).val < 64 := (j 0).isLt
  have hj1 : (j 1).val < 64 := (j 1).isLt
  have e0 : scatter_S256x256_S2_S64x64_01_n_01_0.start j idx 0 + scatter_S256x256_S2_S64x64_01_n_01_0.window j 0
      = ((A + (j 0).val : Nat) : Int) := by rw [start_w2_0, window_w2_0, ha]; omega
  have e1 : scatter_S256x256_S2_S64x64_01_n_01_0.start j idx 1 + scatter_S256x256_S2_S64x64_01_n_01_0.window j 1
      = ((B + (j 1).val : Nat) : Int) := by rw [start_w2_1, window_w2_1, hb]; omega
  have hin : ∀ a, 0 ≤ scatter_S256x256_S2_S64x64_01_n_01_0.start j idx a + scatter_S256x256_S2_S64x64_01_n_01_0.window j a ∧
      scatter_S256x256_S2_S64x64_01_n_01_0.start j idx a + scatter_S256x256_S2_S64x64_01_n_01_0.window j a < S256x256.size a := by
    intro a
    match a with
    | ⟨0, _⟩ => rw [show (⟨0, _⟩ : Fin S256x256.rank) = 0 from rfl, e0]; show _ ∧ _ < ((256 : Nat) : Int); omega
    | ⟨1, _⟩ => rw [show (⟨1, _⟩ : Fin S256x256.rank) = 1 from rfl, e1]; show _ ∧ _ < ((256 : Nat) : Int); omega
  unfold ScatterDims.resultIdx?
  rw [dif_pos hin]
  refine congrArg some (funext fun a => ?_)
  match a with
  | ⟨0, _⟩ => exact Fin.ext (by show (scatter_S256x256_S2_S64x64_01_n_01_0.start j idx 0 + scatter_S256x256_S2_S64x64_01_n_01_0.window j 0).toNat = A + (j 0).val; rw [e0]; omega)
  | ⟨1, _⟩ => exact Fin.ext (by show (scatter_S256x256_S2_S64x64_01_n_01_0.start j idx 1 + scatter_S256x256_S2_S64x64_01_n_01_0.window j 1).toNat = B + (j 1).val; rw [e1]; omega)

/-- One scatter of the second layer: inside the written block the update's element … -/
theorem scatter_w2_hit {α : Type} (x : S256x256.Idx → α) (a b : BitVec 32) (A B : Nat) (ha : a.toInt = (A : Int)) (hb : b.toInt = (B : Int))
    (hA : A + 64 ≤ 256) (hB : B + 64 ≤ 256) (upd : S64x64.Idx → α) (i' : S256x256.Idx) (j : S64x64.Idx)
    (h0 : (i' 0).val = A + (j 0).val) (h1 : (i' 1).val = B + (j 1).val) :
    Host.scatter scatter_S256x256_S2_S64x64_01_n_01_0 (fun _ b => b) x (start2 (F := F) a b) upd i' = upd j := by
  have hi : i' = land2 A B hA hB j := funext fun c => match c with
    | ⟨0, _⟩ => Fin.ext h0
    | ⟨1, _⟩ => Fin.ext h1
  rw [hi]
  exact scatter_set_hit scatter_S256x256_S2_S64x64_01_n_01_0 x (start2 (F := F) a b) upd (land2 A B hA hB)
    (resultIdx_w2 (start2 (F := F) a b) A B (by rw [start2_apply0]; exact ha) (by rw [start2_apply1]; exact hb) hA hB)
    (land2_injective A B hA hB) j

/-- … and outside it the operand's. -/
theorem scatter_w2_miss {α : Type} (x : S256x256.Idx → α) (a b : BitVec 32) (A B : Nat) (ha : a.toInt = (A : Int)) (hb : b.toInt = (B : Int))
    (hA : A + 64 ≤ 256) (hB : B + 64 ≤ 256) (upd : S64x64.Idx → α) (i' : S256x256.Idx)
    (hout : (i' 0).val < A ∨ A + 64 ≤ (i' 0).val ∨ (i' 1).val < B ∨ B + 64 ≤ (i' 1).val) :
    Host.scatter scatter_S256x256_S2_S64x64_01_n_01_0 (fun _ b => b) x (start2 (F := F) a b) upd i' = x i' := by
  refine scatter_set_miss scatter_S256x256_S2_S64x64_01_n_01_0 x (start2 (F := F) a b) upd (land2 A B hA hB)
    (resultIdx_w2 (start2 (F := F) a b) A B (by rw [start2_apply0]; exact ha) (by rw [start2_apply1]; exact hb) hA hB) i' fun j hj => ?_
  have h0 : A + (j 0).val = (i' 0).val := congrArg Fin.val (congrFun hj 0)
  have h1 : B + (j 1).val = (i' 1).val := congrArg Fin.val (congrFun hj 1)
  have hj0 : (j 0).val < 64 := (j 0).isLt
  have hj1 : (j 1).val < 64 := (j 1).isLt
  omega

/-- One scatter of the second layer at row `64 s' + k`, column `64 s + h`, its block being species `t`'s. -/
theorem scatter_w2_cat {α : Type} (x : S256x256.Idx → α) (a b : BitVec 32) (t : Nat) (ht : t < 4) (ha : a.toInt = ((64 * t : Nat) : Int))
    (hb : b.toInt = ((64 * t : Nat) : Int)) (upd : S64x64.Idx → α) (s' s : Fin 4) (k h : Fin 64) :
    Host.scatter scatter_S256x256_S2_S64x64_01_n_01_0 (fun _ b => b) x (start2 (F := F) a b) upd (ix2 (Cert.Fused.cat s' k) (Cert.Fused.cat s h))
      = if s'.val = t ∧ s.val = t then upd (ix2 k h) else x (ix2 (Cert.Fused.cat s' k) (Cert.Fused.cat s h)) := by
  have hk : k.val < 64 := k.isLt
  have hh : h.val < 64 := h.isLt
  by_cases hc : s'.val = t ∧ s.val = t
  · rw [if_pos hc]
    exact scatter_w2_hit x a b (64 * t) (64 * t) ha hb (by omega) (by omega) upd _ (ix2 k h)
      (by show 64 * s'.val + k.val = 64 * t + k.val; omega) (by show 64 * s.val + h.val = 64 * t + h.val; omega)
  · rw [if_neg hc]
    refine scatter_w2_miss x a b (64 * t) (64 * t) ha hb (by omega) (by omega) upd _ ?_
    show 64 * s'.val + k.val < 64 * t ∨ 64 * t + 64 ≤ 64 * s'.val + k.val ∨ 64 * s.val + h.val < 64 * t ∨ 64 * t + 64 ≤ 64 * s.val + h.val
    omega

/-! ### Where the updates land: the read-out's scatter (a 64-element column window at a two-word start index) -/

section W3
variable (idx : IVec S2 32) (j : S64.Idx)

/-- Component `c` of the one start index is read at position `c` of the index vector. -/
theorem siIdx_w3 (c : Fin scatter_S256x4_S2_S64_0_1_01_0.scatterDimsToOperandDims.length) :
    scatter_S256x4_S2_S64_0_1_01_0.siIdx j c = ix1 ⟨c.val, c.isLt⟩ := by
  funext b
  match b with
  | ⟨0, _⟩ => rfl

theorem start_w3_0 : scatter_S256x4_S2_S64_0_1_01_0.start j idx 0 = (idx (ix1 0)).toInt := by
  unfold ScatterDims.start
  rw [dif_pos (show (0 : Fin 2) ∈ scatter_S256x4_S2_S64_0_1_01_0.scatterDimsToOperandDims by decide), siIdx_w3]
  rfl

theorem start_w3_1 : scatter_S256x4_S2_S64_0_1_01_0.start j idx 1 = (idx (ix1 1)).toInt := by
  unfold ScatterDims.start
  rw [dif_pos (show (1 : Fin 2) ∈ scatter_S256x4_S2_S64_0_1_01_0.scatterDimsToOperandDims by decide), siIdx_w3]
  rfl

/-- The window runs down the rows … -/
theorem window_w3_0 : scatter_S256x4_S2_S64_0_1_01_0.window j 0 = (j 0).val := by
  unfold ScatterDims.window
  rw [dif_pos (show (0 : Fin 2) ∈ scatter_S256x4_S2_S64_0_1_01_0.sKept by decide)]
  rfl

/-- … and is one element wide: the column axis is an inserted one. -/
theorem window_w3_1 : scatter_S256x4_S2_S64_0_1_01_0.window j 1 = 0 := by
  unfold ScatterDims.window
  rw [dif_neg (show ¬(1 : Fin 2) ∈ scatter_S256x4_S2_S64_0_1_01_0.sKept by decide)]

end W3

/-- Update element `p` of a column window started at `(A, B)` lands at `(A + p, B)`. -/
def land3 (A B : Nat) (hA : A + 64 ≤ 256) (hB : B < 4) (j : S64.Idx) : S256x4.Idx :=
  ix2 (⟨A + (j 0).val, by have : (j 0).val < 64 := (j 0).isLt; omega⟩ : Fin 256) (⟨B, hB⟩ : Fin 4)

theorem land3_injective (A B : Nat) (hA : A + 64 ≤ 256) (hB : B < 4) : Function.Injective (land3 A B hA hB) := by
  intro j j' h
  have h0 : A + (j 0).val = A + (j' 0).val := congrArg Fin.val (congrFun h 0)
  funext a
  match a with
  | ⟨0, _⟩ => exact Fin.ext (by show (j 0).val = (j' 0).val; omega)

/-- With the start words `A` and `B` and the window inside the matrix, every update element lands, at `land3`. -/
theorem resultIdx_w3 (idx : IVec S2 32) (A B : Nat) (ha : (idx (ix1 0)).toInt = (A : Int)) (hb : (idx (ix1 1)).toInt = (B : Int))
    (hA : A + 64 ≤ 256) (hB : B < 4) (j : S64.Idx) :
    scatter_S256x4_S2_S64_0_1_01_0.resultIdx? j idx = some (land3 A B hA hB j) := by
  have hj0 : (j 0).val < 64 := (j 0).isLt
  have e0 : scatter_S256x4_S2_S64_0_1_01_0.start j idx 0 + scatter_S256x4_S2_S64_0_1_01_0.window j 0
      = ((A + (j 0).val : Nat) : Int) := by rw [start_w3_0, window_w3_0, ha]; omega
  have e1 : scatter_S256x4_S2_S64_0_1_01_0.start j idx 1 + scatter_S256x4_S2_S64_0_1_01_0.window j 1
      = ((B : Nat) : Int) := by rw [start_w3_1, window_w3_1, hb]; omega
  have hin : ∀ a, 0 ≤ scatter_S256x4_S2_S64_0_1_01_0.start j idx a + scatter_S256x4_S2_S64_0_1_01_0.window j a ∧
      scatter_S256x4_S2_S64_0_1_01_0.start j idx a + scatter_S256x4_S2_S64_0_1_01_0.window j a < S256x4.size a := by
    intro a
    match a with
    | ⟨0, _⟩ => rw [show (⟨0, _⟩ : Fin S256x4.rank) = 0 from rfl, e0]; show _ ∧ _ < ((256 : Nat) : Int); omega
    | ⟨1, _⟩ => rw [show (⟨1, _⟩ : Fin S256x4.rank) = 1 from rfl, e1]; show _ ∧ _ < ((4 : Nat) : Int); omega
  unfold ScatterDims.resultIdx?
  rw [dif_pos hin]
  refine congrArg some (funext fun a => ?_)
  match a with
  | ⟨0, _⟩ => exact Fin.ext (by show (scatter_S256x4_S2_S64_0_1_01_0.start j idx 0 + scatter_S256x4_S2_S64_0_1_01_0.window j 0).toNat = A + (j 0).val; rw [e0]; omega)
  | ⟨1, _⟩ => exact Fin.ext (by show (scatter_S256x4_S2_S64_0_1_01_0.start j idx 1 + scatter_S256x4_S2_S64_0_1_01_0.window j 1).toNat = B; rw [e1]; omega)

/-- One scatter of the read-out: inside the written column segment the update's element … -/
theorem scatter_w3_hit {α : Type} (x : S256x4.Idx → α) (a b : BitVec 32) (A B : Nat) (ha : a.toInt = (A : Int)) (hb : b.toInt = (B : Int))
    (hA : A + 64 ≤ 256) (hB : B < 4) (upd : S64.Idx → α) (i' : S256x4.Idx) (j : S64.Idx)
    (h0 : (i' 0).val = A + (j 0).val) (h1 : (i' 1).val = B) :
    Host.scatter scatter_S256x4_S2_S64_0_1_01_0 (fun _ b => b) x (start2 (F := F) a b) upd i' = upd j := by
  have hi : i' = land3 A B hA hB j := funext fun c => match c with
    | ⟨0, _⟩ => Fin.ext h0
    | ⟨1, _⟩ => Fin.ext h1
  rw [hi]
  exact scatter_set_hit scatter_S256x4_S2_S64_0_1_01_0 x (start2 (F := F) a b) upd (land3 A B hA hB)
    (resultIdx_w3 (start2 (F := F) a b) A B (by rw [start2_apply0]; exact ha) (by rw [start2_apply1]; exact hb) hA hB)
    (land3_injective A B hA hB) j

/-- … and outside it the operand's. -/
theorem scatter_w3_miss {α : Type} (x : S256x4.Idx → α) (a b : BitVec 32) (A B : Nat) (ha : a.toInt = (A : Int)) (hb : b.toInt = (B : Int))
    (hA : A + 64 ≤ 256) (hB : B < 4) (upd : S64.Idx → α) (i' : S256x4.Idx)
    (hout : (i' 0).val < A ∨ A + 64 ≤ (i' 0).val ∨ (i' 1).val ≠ B) :
    Host.scatter scatter_S256x4_S2_S64_0_1_01_0 (fun _ b => b) x (start2 (F := F) a b) upd i' = x i' := by
  refine scatter_set_miss scatter_S256x4_S2_S64_0_1_01_0 x (start2 (F := F) a b) upd (land3 A B hA hB)
    (resultIdx_w3 (start2 (F := F) a b) A B (by rw [start2_apply0]; exact ha) (by rw [start2_apply1]; exact hb) hA hB) i' fun j hj => ?_
  have h0 : A + (j 0).val = (i' 0).val := congrArg Fin.val (congrFun hj 0)
  have h1 : B = (i' 1).val := congrArg Fin.val (congrFun hj 1)
  have hj0 : (j 0).val < 64 := (j 0).isLt
  omega

/-- One scatter of the read-out at row `64 s' + k`, column `s`, its segment being species `t`'s. -/
theorem scatter_w3_cat {α : Type} (x : S256x4.Idx → α) (a b : BitVec 32) (t : Nat) (ht : t < 4) (ha : a.toInt = ((64 * t : Nat) : Int))
    (hb : b.toInt = ((t : Nat) : Int)) (upd : S64.Idx → α) (s' s : Fin 4) (k : Fin 64) :
    Host.scatter scatter_S256x4_S2_S64_0_1_01_0 (fun _ b => b) x (start2 (F := F) a b) upd (ix2 (Cert.Fused.cat s' k) s)
      = if s'.val = t ∧ s.val = t then upd (ix1 k) else x (ix2 (Cert.Fused.cat s' k) s) := by
  have hk : k.val < 64 := k.isLt
  by_cases hc : s'.val = t ∧ s.val = t
  · rw [if_pos hc]
    exact scatter_w3_hit x a b (64 * t) t ha hb (by omega) ht upd _ (ix1 k)
      (by show 64 * s'.val + k.val = 64 * t + k.val; omega) (by show s.val = t; omega)
  · rw [if_neg hc]
    refine scatter_w3_miss x a b (64 * t) t ha hb (by omega) ht upd _ ?_
    show 64 * s'.val + k.val < 64 * t ∨ 64 * t + 64 ≤ 64 * s'.val + k.val ∨ s.val ≠ t
    omega

/-! ### The two matrices at an index -/

/-- The second layer's block-diagonal matrix at row `64 s' + k`, column `64 s + h`: species `s`'s weight `(k, h)` on the
    diagonal blocks, zero off them. -/
theorem w2diag_apply (W2 : (⟨S4x64x64, .f32⟩ : BufTy).Contents (Elt Ideal)) (s' s : Fin 4) (k h : Fin 64) :
    w2diag (F := Ideal) W2 (ValueIdx.ix2 (Cert.Fused.cat s' k) (Cert.Fused.cat s h)) = if s' = s then W2 (ValueIdx.ix3 s k h) else 0 := by
  unfold w2diag
  rw [scatter_w2_cat (F := Ideal) _ 192#32 192#32 3 (by omega) (by decide) (by decide),
    scatter_w2_cat (F := Ideal) _ 128#32 128#32 2 (by omega) (by decide) (by decide),
    scatter_w2_cat (F := Ideal) _ 64#32 64#32 1 (by omega) (by decide) (by decide),
    scatter_w2_cat (F := Ideal) _ 0#32 0#32 0 (by omega) (by decide) (by decide)]
  by_cases hs : s' = s
  · subst hs
    rw [if_pos rfl]
    have hv : s'.val = 0 ∨ s'.val = 1 ∨ s'.val = 2 ∨ s'.val = 3 := by have := s'.isLt; omega
    rcases hv with h0 | h0 | h0 | h0
    · rw [if_neg (by omega), if_neg (by omega), if_neg (by omega), if_pos ⟨h0, h0⟩]
      have e : s' = (⟨0, by decide⟩ : Fin 4) := Fin.ext h0
      subst e
      exact blk2_apply W2 0 (by decide) slices_S4x64x64_S1x64x64_0_0_0 k h
    · rw [if_neg (by omega), if_neg (by omega), if_pos ⟨h0, h0⟩]
      have e : s' = (⟨1, by decide⟩ : Fin 4) := Fin.ext h0
      subst e
      exact blk2_apply W2 1 (by decide) slices_S4x64x64_S1x64x64_1_0_0 k h
    · rw [if_neg (by omega), if_pos ⟨h0, h0⟩]
      have e : s' = (⟨2, by decide⟩ : Fin 4) := Fin.ext h0
      subst e
      exact blk2_apply W2 2 (by decide) slices_S4x64x64_S1x64x64_2_0_0 k h
    · rw [if_pos ⟨h0, h0⟩]
      have e : s' = (⟨3, by decide⟩ : Fin 4) := Fin.ext h0
      subst e
      exact blk2_apply W2 3 (by decide) slices_S4x64x64_S1x64x64_3_0_0 k h
  · have hv : s'.val ≠ s.val := fun e => hs (Fin.ext e)
    rw [if_neg hs, if_neg (by omega), if_neg (by omega), if_neg (by omega), if_neg (by omega)]
    exact Ideal.ofBits_zero_f32

/-- The read-out's block-diagonal matrix at row `64 s' + k`, column `s`: species `s`'s weight `k` when the row is in
    species `s`'s block, zero otherwise. -/
theorem w3diag_apply (W3 : (⟨S4x64x1, .f32⟩ : BufTy).Contents (Elt Ideal)) (s' s : Fin 4) (k : Fin 64) :
    w3diag (F := Ideal) W3 (ValueIdx.ix2 (Cert.Fused.cat s' k) s) = if s' = s then W3 (ValueIdx.ix3 s k 0) else 0 := by
  unfold w3diag
  rw [scatter_w3_cat (F := Ideal) _ 192#32 3#32 3 (by omega) (by decide) (by decide),
    scatter_w3_cat (F := Ideal) _ 128#32 2#32 2 (by omega) (by decide) (by decide),
    scatter_w3_cat (F := Ideal) _ 64#32 1#32 1 (by omega) (by decide) (by decide),
    scatter_w3_cat (F := Ideal) _ 0#32 0#32 0 (by omega) (by decide) (by decide)]
  by_cases hs : s' = s
  · subst hs
    rw [if_pos rfl]
    have hv : s'.val = 0 ∨ s'.val = 1 ∨ s'.val = 2 ∨ s'.val = 3 := by have := s'.isLt; omega
    rcases hv with h0 | h0 | h0 | h0
    · rw [if_neg (by omega), if_neg (by omega), if_neg (by omega), if_pos ⟨h0, h0⟩]
      have e : s' = (⟨0, by decide⟩ : Fin 4) := Fin.ext h0
      subst e
      exact blk3_apply W3 0 (by decide) slices_S4x64x1_S1x64x1_0_0_0 k
    · rw [if_neg (by omega), if_neg (by omega), if_pos ⟨h0, h0⟩]
      have e : s' = (⟨1, by decide⟩ : Fin 4) := Fin.ext h0
      subst e
      exact blk3_apply W3 1 (by decide) slices_S4x64x1_S1x64x1_1_0_0 k
    · rw [if_neg (by omega), if_pos ⟨h0, h0⟩]
      have e : s' = (⟨2, by decide⟩ : Fin 4) := Fin.ext h0
      subst e
      exact blk3_apply W3 2 (by decide) slices_S4x64x1_S1x64x1_2_0_0 k
    · rw [if_pos ⟨h0, h0⟩]
      have e : s' = (⟨3, by decide⟩ : Fin 4) := Fin.ext h0
      subst e
      exact blk3_apply W3 3 (by decide) slices_S4x64x1_S1x64x1_3_0_0 k
  · have hv : s'.val ≠ s.val := fun e => hs (Fin.ext e)
    rw [if_neg hs, if_neg (by omega), if_neg (by omega), if_neg (by omega), if_neg (by omega)]
    exact Ideal.ofBits_zero_f32

end Cert.KernelIdeal.Operands

end
-- ==== Proof.KTail.lean ====
/-
  The host operations after the launch: the region's output column [1003520, 1] is flattened to [1003520] and its first
  1,000,000 entries kept — the padded rows' energies are dropped. Entry `i` of the result is row `i` of the column.
-/
import proofs.«120765_j59296318489074_2_alg».proof.KernelIdeal
import proofs.«120765_j59296318489074_2_alg».proof.Proof.Gen.KernelIdeal
import Idealize.ShloMosaic.Lib.Pipeline.Value
import Idealize.ShloMosaic.Lib.ValueIdx

noncomputable section

namespace Cert.KernelIdeal.Tail

open Cert.KernelIdeal Cert.KernelIdeal.Facts₀ Cert.KernelIdeal.Facts Idealize.ShloMosaic Idealize.ShloMosaic.ValueIdx

variable {F : FTy → Type} [FloatOps F]

/-- The result array from the region's output column. -/
def tail (y : (⟨S1003520x1, .f32⟩ : BufTy).Contents (Elt F)) : (⟨S1000000, .f32⟩ : BufTy).Contents (Elt F) :=
  extractStridedSlice S1000000 ![0] (shapeCast S1003520 y shapeCasts_S1003520x1_S1003520) slices_S1003520_S1000000_0

/-- Entry `i` of the result is row `i` of the column. -/
theorem tail_apply (y : (⟨S1003520x1, .f32⟩ : BufTy).Contents (Elt F)) (i : Fin 1000000) :
    tail y (ix1 i) = y (ix2 (⟨i.val, by have := i.isLt; omega⟩ : Fin 1003520) (0 : Fin 1)) := by
  unfold tail
  rw [extractStridedSlice_apply ![0] _ slices_S1003520_S1000000_0 (ix1 i) (ix1 (⟨i.val, by have := i.isLt; omega⟩ : Fin 1003520))
    (fun a => match a with | ⟨0, _⟩ => by show i.val = 0 + i.val; omega)]
  exact shapeCast_apply y shapeCasts_S1003520x1_S1003520 _ _ (by
    rw [Shape.rowMajor_val_two, Shape.rowMajor_val_one]
    show i.val * 1 + 0 = i.val
    omega)

end Cert.KernelIdeal.Tail

end
-- ==== Proof.Payload.lean ====
/-
  The kernel body's arithmetic, read at one row.

  The body's one store writes, at row `p` of its block, a value that depends only on row `p` of the feature block,
  on row `p`'s species word, and on the whole weight operands: three block products into zero accumulators — each, at
  an entry, the plain sum over the contracted positions of the products —, a bias row broadcast over the rows and a
  `tanh` after the first two, then the four columns multiplied by the one-hot row of the species word (the word
  broadcast along the columns, compared with the column number, the bit read as a number) and summed along the
  columns. Changes of float format and shape casts that change nothing are the identity. Read so, row `p` is the fused
  network's energy of that row.
-/
import proofs.«120765_j59296318489074_2_alg».proof.Proof.Gen.KernelIdeal.Skeleton
import proofs.«120765_j59296318489074_2_alg».proof.Proof.Fused
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector, cast to one row and broadcast over `a` rows, reads its entry `j` at every `(p, j)`. -/
theorem bias_apply {n a : ℕ} (b : (⟨1, ![n]⟩ : Shape).Idx → α)
    (h1 : (⟨1, ![n]⟩ : Shape).ShapeCasts ⟨2, ![1, n]⟩) (h2 : (⟨2, ![1, n]⟩ : Shape).Broadcasts ⟨2, ![a, n]⟩) (p : Fin a) (j : Fin n) :
    broadcastTo ⟨2, ![a, n]⟩ (shapeCast ⟨2, ![1, n]⟩ b h1) h2 (ix2 p j) = b (ix1 j) := by
  rw [broadcastTo_1b_ab_apply, shapeCast_a_1a_apply]

/-- The block product into a zero accumulator, at row `p` and column `j`: the sum over the 128 contracted positions. -/
theorem mm1_apply (l : FVec Ideal S4096x128 .bf16) (r : FVec Ideal S128x256 .bf16) (p : Fin 4096) (j : Fin 256) :
    matmul dot_S4096x128_S128x256_S4096x256_1_0_0_1_n_n none l r (constant S4096x256 .f32 0x00000000#32) (ix2 p j)
      = ∑ k : Fin 128, l (ix2 p k) * r (ix2 k j) := by
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have l0 : ∀ (i : S4096x256.Idx) (q : dot_S4096x128_S128x256_S4096x256_1_0_0_1_n_n.contr.Idx), (dot_S4096x128_S128x256_S4096x256_1_0_0_1_n_n.lhsIdx i q 0).val = (i 0).val := fun i q => by
    unfold DotDims.lhsIdx
    rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
    rfl
  have r1 : ∀ (i : S4096x256.Idx) (q : dot_S4096x128_S128x256_S4096x256_1_0_0_1_n_n.contr.Idx), (dot_S4096x128_S128x256_S4096x256_1_0_0_1_n_n.rhsIdx i q 1).val = (i 1).val := fun i q => by
    unfold DotDims.rhsIdx
    rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
    rfl
  have el : dot_S4096x128_S128x256_S4096x256_1_0_0_1_n_n.lhsIdx (ix2 p j) ((contrEquiv1 dot_S4096x128_S128x256_S4096x256_1_0_0_1_n_n 128 rfl rfl).symm k) = ix2 p k := funext fun a => Fin.ext (by
    match a with
    | ⟨0, _⟩ => exact l0 _ _
    | ⟨1, _⟩ => exact (dot_S4096x128_S128x256_S4096x256_1_0_0_1_n_n.lhsIdx_val_of_single rfl _ _).trans hk)
  have er : dot_S4096x128_S128x256_S4096x256_1_0_0_1_n_n.rhsIdx (ix2 p j) ((contrEquiv1 dot_S4096x128_S128x256_S4096x256_1_0_0_1_n_n 128 rfl rfl).symm k) = ix2 k j := funext fun a => Fin.ext (by
    match a with
    | ⟨0, _⟩ => exact (dot_S4096x128_S128x256_S4096x256_1_0_0_1_n_n.rhsIdx_val_of_single rfl _ _).trans hk
    | ⟨1, _⟩ => exact r1 _ _)
  rw [el, er]

/-- The block product into a zero accumulator, at row `p` and column `j`: the sum over the 256 contracted positions. -/
theorem mm2_apply (l : FVec Ideal S4096x256 .bf16) (r : FVec Ideal S256x256 .bf16) (p : Fin 4096) (j : Fin 256) :
    matmul dot_S4096x256_S256x256_S4096x256_1_0_0_1_n_n none l r (constant S4096x256 .f32 0x00000000#32) (ix2 p j)
      = ∑ k : Fin 256, l (ix2 p k) * r (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have l0 : ∀ (i : S4096x256.Idx) (q : dot_S4096x256_S256x256_S4096x256_1_0_0_1_n_n.contr.Idx), (dot_S4096x256_S256x256_S4096x256_1_0_0_1_n_n.lhsIdx i q 0).val = (i 0).val := fun i q => by
    unfold DotDims.lhsIdx
    rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
    rfl
  have r1 : ∀ (i : S4096x256.Idx) (q : dot_S4096x256_S256x256_S4096x256_1_0_0_1_n_n.contr.Idx), (dot_S4096x256_S256x256_S4096x256_1_0_0_1_n_n.rhsIdx i q 1).val = (i 1).val := fun i q => by
    unfold DotDims.rhsIdx
    rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
    rfl
  have el : dot_S4096x256_S256x256_S4096x256_1_0_0_1_n_n.lhsIdx (ix2 p j) ((contrEquiv1 dot_S4096x256_S256x256_S4096x256_1_0_0_1_n_n 256 rfl rfl).symm k) = ix2 p k := funext fun a => Fin.ext (by
    match a with
    | ⟨0, _⟩ => exact l0 _ _
    | ⟨1, _⟩ => exact (dot_S4096x256_S256x256_S4096x256_1_0_0_1_n_n.lhsIdx_val_of_single rfl _ _).trans hk)
  have er : dot_S4096x256_S256x256_S4096x256_1_0_0_1_n_n.rhsIdx (ix2 p j) ((contrEquiv1 dot_S4096x256_S256x256_S4096x256_1_0_0_1_n_n 256 rfl rfl).symm k) = ix2 k j := funext fun a => Fin.ext (by
    match a with
    | ⟨0, _⟩ => exact (dot_S4096x256_S256x256_S4096x256_1_0_0_1_n_n.rhsIdx_val_of_single rfl _ _).trans hk
    | ⟨1, _⟩ => exact r1 _ _)
  rw [el, er]

/-- The block product into a zero accumulator, at row `p` and column `j`: the sum over the 256 contracted positions. -/
theorem mm3_apply (l : FVec Ideal S4096x256 .bf16) (r : FVec Ideal S256x4 .bf16) (p : Fin 4096) (j : Fin 4) :
    matmul dot_S4096x256_S256x4_S4096x4_1_0_0_1_n_n none l r (constant S4096x4 .f32 0x00000000#32) (ix2 p j)
      = ∑ k : Fin 256, l (ix2 p k) * r (ix2 k j) := by
  simp only [matmul]
  rw [Ideal.matmul_constant_zero_apply, ← Equiv.sum_comp (contrEquiv1 dot_S4096x256_S256x4_S4096x4_1_0_0_1_n_n 256 rfl rfl).symm]
  refine Finset.sum_congr rfl fun k _ => ?_
  have hk := contrEquiv1_symm_val dot_S4096x256_S256x4_S4096x4_1_0_0_1_n_n 256 rfl rfl k
  have l0 : ∀ (i : S4096x4.Idx) (q : dot_S4096x256_S256x4_S4096x4_1_0_0_1_n_n.contr.Idx), (dot_S4096x256_S256x4_S4096x4_1_0_0_1_n_n.lhsIdx i q 0).val = (i 0).val := fun i q => by
    unfold DotDims.lhsIdx
    rw [dif_neg (show ¬(0 : Fin S4096x256.rank) ∈ dot_S4096x256_S256x4_S4096x4_1_0_0_1_n_n.lhsBatch by decide), dif_pos (show (0 : Fin S4096x256.rank) ∈ dot_S4096x256_S256x4_S4096x4_1_0_0_1_n_n.lhsNonContracting by decide)]
    rfl
  have r1 : ∀ (i : S4096x4.Idx) (q : dot_S4096x256_S256x4_S4096x4_1_0_0_1_n_n.contr.Idx), (dot_S4096x256_S256x4_S4096x4_1_0_0_1_n_n.rhsIdx i q 1).val = (i 1).val := fun i q => by
    unfold DotDims.rhsIdx
    rw [dif_neg (show ¬(1 : Fin S256x4.rank) ∈ dot_S4096x256_S256x4_S4096x4_1_0_0_1_n_n.rhsBatch by decide), dif_pos (show (1 : Fin S256x4.rank) ∈ dot_S4096x256_S256x4_S4096x4_1_0_0_1_n_n.rhsNonContracting by decide)]
    rfl
  have el : dot_S4096x256_S256x4_S4096x4_1_0_0_1_n_n.lhsIdx (ix2 p j) ((contrEquiv1 dot_S4096x256_S256x4_S4096x4_1_0_0_1_n_n 256 rfl rfl).symm k) = ix2 p k := funext fun a => Fin.ext (by
    match a with
    | ⟨0, _⟩ => exact l0 _ _
    | ⟨1, _⟩ => exact (dot_S4096x256_S256x4_S4096x4_1_0_0_1_n_n.lhsIdx_val_of_single rfl _ _).trans hk)
  have er : dot_S4096x256_S256x4_S4096x4_1_0_0_1_n_n.rhsIdx (ix2 p j) ((contrEquiv1 dot_S4096x256_S256x4_S4096x4_1_0_0_1_n_n 256 rfl rfl).symm k) = ix2 k j := funext fun a => Fin.ext (by
    match a with
    | ⟨0, _⟩ => exact (dot_S4096x256_S256x4_S4096x4_1_0_0_1_n_n.rhsIdx_val_of_single rfl _ _).trans hk
    | ⟨1, _⟩ => exact r1 _ _)
  rw [el, er]

/-- The vector `tanh` at an index is `tanh` of the entry. -/
theorem tanh_apply {s : Shape} {φ : FTy} (a : FVec Ideal s φ) (i : s.Idx) : tanh a i = Ideal.tanh (a i) := rfl

/-- The sum along the four columns, from a zero accumulator: at row `p` the four entries of that row, added. -/
theorem colsum_apply (src : FVec Ideal S4096x4 .f32) (h : S4096x4.Reduces [1] S4096)
    (hacc : (0x00000000#32 : BitVec 32) = 0x00000000#32) (p : Fin 4096) :
    multiReduction .add [1] S4096 src 0x00000000#32 h (.inl rfl) hacc (ix1 p) = ∑ s : Fin 4, src (ix2 p s) := by
  refine (Ideal.multiReduction_add_single src 0x00000000#32 h (.inl rfl) hacc (ix1 p)).trans ?_
  refine Finset.sum_congr rfl fun s _ => congrArg src (funext fun c => Fin.ext ?_)
  match c with
  | ⟨0, _⟩ => rfl
  | ⟨1, _⟩ => rfl

/-- The one-hot row: the species word of row `p`, broadcast along the columns, compared with the column number. -/
theorem onehot_apply (sp : IVec S4096x1 32) (h1 : S4096x1.Broadcasts S4096x4) (hi : S4096x4.Iotas .tc 32 [1])
    (hlt : 1 < 32) (p : Fin 4096) (s : Fin 4) :
    (sitofp .f32 (extui 32 (cmpi .eq (broadcastTo S4096x4 sp h1) (iota .tc S4096x4 32 [1] hi)) hlt) : FVec Ideal S4096x4 .f32) (ix2 p s)
      = Fused.onehot (sp (ix2 p (0 : Fin 1))) s := by
  have e1 : broadcastTo S4096x4 sp h1 (ix2 p s) = sp (ix2 p (0 : Fin 1)) := broadcastTo_a1_ab_apply sp h1 p s
  have e2 : iota .tc S4096x4 32 [1] hi (ix2 p s) = BitVec.ofNat 32 s.val := by
    show BitVec.ofNat 32 (0 * 4 + s.val) = _
    rw [Nat.zero_mul, Nat.zero_add]
  show ((((IntOp.cmpi .eq (broadcastTo S4096x4 sp h1 (ix2 p s)) (iota .tc S4096x4 32 [1] hi (ix2 p s))).setWidth 32).toInt : ℝ) : EReal) = _
  rw [e1, e2]
  rfl

/-- THE PAYLOAD AT A ROW: row `p` of what the body stores is the fused network's energy of row `p` of the feature
    block and row `p`'s species word, at the weight operands as loaded. -/
theorem pay_apply (v0 : Vec Ideal S4096x128 .f32) (v3 : Vec Ideal S128x256 .bf16) (v6 : Vec Ideal S256 .f32)
    (v13 : Vec Ideal S256x256 .bf16) (v16 : Vec Ideal S256 .f32) (v23 : Vec Ideal S256x4 .bf16) (v26 : Vec Ideal S4 .f32)
    (v31 : Vec Ideal S4096x1 .i32) (p : Fin 4096) :
    Gen.k0_pay1 (F := Ideal) v0 v3 v6 v13 v16 v23 v26 v31 (ix2 p (0 : Fin 1))
      = Fused.energy (fun f => v0 (ix2 p f)) (v31 (ix2 p (0 : Fin 1))) v3 v6 v13 v16 v23 v26 := by
  unfold Gen.k0_pay1 Fused.energy
  simp only [shapeCast_self]
  refine (shapeCast_a_a1_apply _ _ p 0).trans ?_
  refine (colsum_apply _ _ _ p).trans ?_
  refine Finset.sum_congr rfl fun s _ => ?_
  refine congrArg₂ (· * ·) ?_ (onehot_apply v31 _ _ _ p s)
  unfold Fused.out Fused.hid2 Fused.hid1
  simp only [addf_apply, truncf_apply, tanh_apply, mm3_apply, mm2_apply, mm1_apply, bias_apply]

end Cert.KernelIdeal.Payload

end
-- ==== Proof.KValue.lean ====
/-
  The idealized kernel's run, read as a value.

  The arrays the region is launched on are the host operations before it applied to the argument arrays (the padded
  features and species column, the fused weights and flattened biases). At grid point `t` the body sees row block `t`
  of the first two and the whole of the others, and stores, at row `p` of the output block, the fused network's energy
  of row `4096 t + p`. The 245 output blocks tile the output column, so after the run the column holds that energy at
  every row; the host operations after the region flatten it and keep the first 1,000,000 rows, where the padded arrays
  are the arguments themselves and the fused network's energy is the specification's.
-/
import proofs.«120765_j59296318489074_2_alg».proof.Proof.Gen.KernelIdeal.Frame
import proofs.«120765_j59296318489074_2_alg».proof.Proof.KOperands
import proofs.«120765_j59296318489074_2_alg».proof.Proof.KEntry
import proofs.«120765_j59296318489074_2_alg».proof.Proof.KOperandsAt
import proofs.«120765_j59296318489074_2_alg».proof.Proof.BlockDiag
import proofs.«120765_j59296318489074_2_alg».proof.Proof.KTail
import proofs.«120765_j59296318489074_2_alg».proof.Proof.Payload
import proofs.«120765_j59296318489074_2_alg».proof.Proof.Fused
import proofs.«120765_j59296318489074_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The printed index maps, decided once over the 245 grid points -/

theorem hz1 : (![0] : Fin 1 → Nat) = fun _ => 0 := funext fun a => by fin_cases a; rfl
theorem hz2 : (![0, 0] : Fin 2 → Nat) = fun _ => 0 := funext fun a => by fin_cases a <;> rfl

/-- Point `t` takes row block `t` of the features, of the species column and of the output, and the whole of every
    weight and bias operand. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## Each window's block at a point, as entries of the launched arrays -/

/-- Row `p` of the feature block at point `t` is row `4096 t + p` of the padded features. -/
theorem iblk0_apply (c : Dev nD) (t : Fin cfg0.N) (p : Fin 4096) (f : Fin 128) (r : Fin 1003520) (hr : r.val = 4096 * t.val + p.val) :
    (iblk m c 0 t : Vec Ideal S4096x128 .f32) (ix2 p f) = Operands.xpad (F := Ideal) (m ((c : Thread nD τ).loc main_arg0)) (ix2 r f) := by
  obtain ⟨e00, e01, -⟩ := idx_facts t
  unfold iblk
  rw [View.read_apply]
  show V m c main_v0 _ = _
  rw [V_v0]
  refine congrArg _ (funext fun a => Fin.ext ?_)
  match a with
  | ⟨0, _⟩ => show win0_0.index t (0 : Fin 2) * 4096 + 1 * p.val = r.val; rw [e00, hr]; omega
  | ⟨1, _⟩ => show win0_0.index t (1 : Fin 2) * 128 + 1 * f.val = f.val; rw [e01]; omega

/-- Row `p` of the species block at point `t` is row `4096 t + p` of the padded species column. -/
theorem iblk1_apply (c : Dev nD) (t : Fin cfg0.N) (p : Fin 4096) (r : Fin 1003520) (hr : r.val = 4096 * t.val + p.val) :
    (iblk m c 1 t : Vec Ideal S4096x1 .i32) (ix2 p (0 : Fin 1)) = Operands.sppad (F := Ideal) (m ((c : Thread nD τ).loc main_arg1)) (ix2 r (0 : Fin 1)) := by
  obtain ⟨-, -, e10, e11, -⟩ := idx_facts t
  unfold iblk
  rw [View.read_apply]
  show V m c main_v2 _ = _
  rw [V_v2]
  refine congrArg _ (funext fun a => Fin.ext ?_)
  match a with
  | ⟨0, _⟩ => show win0_1.index t (0 : Fin 2) * 4096 + 1 * p.val = r.val; rw [e10, hr]; omega
  | ⟨1, _⟩ => show win0_1.index t (1 : Fin 2) * 1 + 1 * 0 = 0; rw [e11]

/-- The first-layer weights' block at every point is the whole fused matrix. -/
theorem iblk2_eq (c : Dev nD) (t : Fin cfg0.N) :
    (iblk m c 2 t : Vec Ideal S128x256 .bf16) = Operands.w1f (F := Ideal) (m ((c : Thread nD τ).loc main_arg2)) := by
  obtain ⟨-, -, -, -, e0, e1, -⟩ := idx_facts t
  funext y
  unfold iblk
  rw [View.read_apply]
  show V m c main_v58 _ = _
  rw [V_v58]
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

theorem iblk3_eq (c : Dev nD) (t : Fin cfg0.N) :
    (iblk m c 3 t : Vec Ideal S256 .f32) = Operands.bflat (F := Ideal) (m ((c : Thread nD τ).loc main_arg3)) := by
  obtain ⟨-, -, -, -, -, -, e0, -⟩ := idx_facts t
  funext y
  unfold iblk
  rw [View.read_apply]
  show V m c main_v5 _ = _
  rw [V_v5]
  refine congrArg _ (funext fun a => Fin.ext ?_)
  match a with
  | ⟨0, _⟩ => show win0_3.index t (0 : Fin 1) * 256 + 1 * (y 0).val = (y 0).val; rw [e0]; omega

/-- The second-layer weights' block at every point is the whole block-diagonal matrix. -/
theorem iblk4_eq (c : Dev nD) (t : Fin cfg0.N) :
    (iblk m c 4 t : Vec Ideal S256x256 .bf16) = Operands.w2f (F := Ideal) (m ((c : Thread nD τ).loc main_arg4)) := by
  obtain ⟨-, -, -, -, -, -, -, e0, e1, -⟩ := idx_facts t
  funext y
  unfold iblk
  rw [View.read_apply]
  show V m c main_v59 _ = _
  rw [V_v59]
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem iblk5_eq (c : Dev nD) (t : Fin cfg0.N) :
    (iblk m c 5 t : Vec Ideal S256 .f32) = Operands.bflat (F := Ideal) (m ((c : Thread nD τ).loc main_arg5)) := by
  obtain ⟨-, -, -, -, -, -, -, -, -, e0, -⟩ := idx_facts t
  funext y
  unfold iblk
  rw [View.read_apply]
  show V m c main_v31 _ = _
  rw [V_v31]
  refine congrArg _ (funext fun a => Fin.ext ?_)
  match a with
  | ⟨0, _⟩ => show win0_5.index t (0 : Fin 1) * 256 + 1 * (y 0).val = (y 0).val; rw [e0]; omega

/-- The read-out weights' block at every point is the whole block-diagonal matrix. -/
theorem iblk6_eq (c : Dev nD) (t : Fin cfg0.N) :
    (iblk m c 6 t : Vec Ideal S256x4 .bf16) = Operands.w3f (F := Ideal) (m ((c : Thread nD τ).loc main_arg6)) := by
  obtain ⟨-, -, -, -, -, -, -, -, -, -, e0, e1, -⟩ := idx_facts t
  funext y
  unfold iblk
  rw [View.read_apply]
  show V m c main_v60 _ = _
  rw [V_v60]
  refine congrArg _ (funext fun a => Fin.ext ?_)
  match a with
  | ⟨0, _⟩ => show win0_6.index t (0 : Fin 2) * 256 + 1 * (y 0).val = (y 0).val; rw [e0]; omega
  | ⟨1, _⟩ => show win0_6.index t (1 : Fin 2) * 4 + 1 * (y 1).val = (y 1).val; rw [e1]; omega

theorem iblk7_eq (c : Dev nD) (t : Fin cfg0.N) :
    (iblk m c 7 t : Vec Ideal S4 .f32) = Operands.b3flat (F := Ideal) (m ((c : Thread nD τ).loc main_arg7)) := by
  obtain ⟨-, -, -, -, -, -, -, -, -, -, -, -, e0, -⟩ := idx_facts t
  funext y
  unfold iblk
  rw [View.read_apply]
  show V m c main_v57 _ = _
  rw [V_v57]
  refine congrArg _ (funext fun a => Fin.ext ?_)
  match a with
  | ⟨0, _⟩ => show win0_7.index t (0 : Fin 1) * 4 + 1 * (y 0).val = (y 0).val; rw [e0]; omega

/-! ## The region's output array -/

/-- What the region leaves in its output column [1003520, 1]: at row `r`, the fused network's energy of row `r` of the
    padded features and row `r`'s padded species word. -/
def regionOut (c : Dev nD) : S1003520x1.Idx → EReal := fun i =>
  Fused.energy (fun f => Operands.xpad (F := Ideal) (m ((c : Thread nD τ).loc main_arg0)) (ix2 (⟨(i 0).val, (i 0).isLt⟩ : Fin 1003520) f))
    (Operands.sppad (F := Ideal) (m ((c : Thread nD τ).loc main_arg1)) (ix2 (⟨(i 0).val, (i 0).isLt⟩ : Fin 1003520) (0 : Fin 1)))
    (Operands.w1f (F := Ideal) (m ((c : Thread nD τ).loc main_arg2))) (Operands.bflat (F := Ideal) (m ((c : Thread nD τ).loc main_arg3)))
    (Operands.w2f (F := Ideal) (m ((c : Thread nD τ).loc main_arg4))) (Operands.bflat (F := Ideal) (m ((c : Thread nD τ).loc main_arg5)))
    (Operands.w3f (F := Ideal) (m ((c : Thread nD τ).loc main_arg6))) (Operands.b3flat (F := Ideal) (m ((c : Thread nD τ).loc main_arg7)))

/-- WHAT POINT `t` WRITES BACK is block `t` of `regionOut`: the body's one store holds, at row `p`, the energy of row
    `4096 t + p`. -/
theorem flushed_eq (c : Dev nD) (t : Fin cfg0.N) :
    (dats m 0 c).flushed 8 t = ((cfg0.win 8).blk t).view.read (Elt Ideal) (regionOut m c) := by
  show (cfg0.win 8).cut (grid0.coords t) ((dats m 0 c).after 8 t) = _
  rw [after0_8]
  unfold out0_8
  rw [View.canon_unit_zero hz2]
  simp only [View.ld_unit_zero (S := S4096x128) hz2, View.ld_unit_zero (S := S128x256) hz2, View.ld_unit_zero (S := S256) hz1,
    View.ld_unit_zero (S := S256x256) hz2, View.ld_unit_zero (S := S256x4) hz2, View.ld_unit_zero (S := S4) hz1,
    View.ld_unit_zero (S := S4096x1) hz2]
  obtain ⟨-, -, -, -, -, -, -, -, -, -, -, -, -, e80, e81⟩ := idx_facts t
  funext j
  obtain ⟨p, q, rfl⟩ : ∃ (p : Fin 4096) (q : Fin 1), j = ix2 p q := ⟨j 0, j 1, eq_ix2 j⟩
  obtain rfl : q = 0 := Subsingleton.elim _ _
  show k0_pay1 (iblk m c 0 t) (iblk m c 2 t) (iblk m c 3 t) (iblk m c 4 t) (iblk m c 5 t) (iblk m c 6 t) (iblk m c 7 t) (iblk m c 1 t) (ix2 p (0 : Fin 1))
    = regionOut m c (((cfg0.win 8).blk t).view.emb (ix2 p (0 : Fin 1)))
  refine (Payload.pay_apply (iblk m c 0 t) (iblk m c 2 t) (iblk m c 3 t) (iblk m c 4 t) (iblk m c 5 t) (iblk m c 6 t) (iblk m c 7 t) (iblk m c 1 t) p).trans ?_
  rw [iblk2_eq, iblk3_eq, iblk4_eq, iblk5_eq, iblk6_eq, iblk7_eq]
  unfold regionOut
  have hr : ((((cfg0.win 8).blk t).view.emb (ix2 p (0 : Fin 1))) 0).val = 4096 * t.val + p.val := by
    show win0_8.index t (0 : Fin 2) * 4096 + 1 * p.val = _
    rw [e80]; omega
  have h0 : (fun f : Fin 128 => (iblk m c 0 t : Vec Ideal S4096x128 .f32) (ix2 p f))
      = fun f => Operands.xpad (F := Ideal) (m ((c : Thread nD τ).loc main_arg0))
          (ix2 (⟨((((cfg0.win 8).blk t).view.emb (ix2 p (0 : Fin 1))) 0).val, ((((cfg0.win 8).blk t).view.emb (ix2 p (0 : Fin 1))) 0).isLt⟩ : Fin 1003520) f) :=
    funext fun f => iblk0_apply m c t p f _ hr
  have h1 : (iblk m c 1 t : Vec Ideal S4096x1 .i32) (ix2 p (0 : Fin 1))
      = Operands.sppad (F := Ideal) (m ((c : Thread nD τ).loc main_arg1))
          (ix2 (⟨((((cfg0.win 8).blk t).view.emb (ix2 p (0 : Fin 1))) 0).val, ((((cfg0.win 8).blk t).view.emb (ix2 p (0 : Fin 1))) 0).isLt⟩ : Fin 1003520) (0 : Fin 1)) :=
    iblk1_apply m c t p _ hr
  rw [h0, h1]

/-- An index of the output column is in point `t`'s block iff each coordinate is in the block's range on its axis. -/
theorem mem_blk (t : Fin cfg0.N) (i : S1003520x1.Idx) :
    i ∈ ((cfg0.win 8).blk t).view.set ↔ ∀ a : Fin 2, win0_8.index t a * S4096x1.size a ≤ (i a).val ∧ (i a).val < win0_8.index t a * S4096x1.size a + S4096x1.size a := by
  show i ∈ ((View.whole main_v61).slice (win0_8.rect t)).set ↔ _
  rw [View.set_slice_whole, Rect.mem_set_unit]
  exact Iff.rfl

/-- The 245 row blocks cover the column: row `r` is in the block of point `r / 4096`. -/
theorem cover (i : S1003520x1.Idx) : ∃ t : Fin cfg0.N, (cfg0.win 8).flush t = true ∧ i ∈ ((cfg0.win 8).blk t).view.set := by
  have hi0 : (i 0).val < 1003520 := (i 0).isLt
  have hi1 : (i 1).val < 1 := (i 1).isLt
  have hN : cfg0.N = 245 := N_0
  have ht : (i 0).val / 4096 < cfg0.N := by rw [hN]; omega
  refine ⟨⟨(i 0).val / 4096, ht⟩, flush0_8 _, ?_⟩
  obtain ⟨-, -, -, -, -, -, -, -, -, -, -, -, -, e80, e81⟩ := idx_facts ⟨(i 0).val / 4096, ht⟩
  rw [mem_blk]
  intro a
  match a with
  | ⟨0, _⟩ =>
    show win0_8.index ⟨(i 0).val / 4096, ht⟩ (0 : Fin 2) * 4096 ≤ (i 0).val ∧ (i 0).val < win0_8.index ⟨(i 0).val / 4096, ht⟩ (0 : Fin 2) * 4096 + 4096
    rw [e80]; show (i 0).val / 4096 * 4096 ≤ (i 0).val ∧ (i 0).val < (i 0).val / 4096 * 4096 + 4096; omega
  | ⟨1, _⟩ =>
    show win0_8.index ⟨(i 0).val / 4096, ht⟩ (1 : Fin 2) * 1 ≤ (i 1).val ∧ (i 1).val < win0_8.index ⟨(i 0).val / 4096, ht⟩ (1 : Fin 2) * 1 + 1
    rw [e81]; omega

/-- THE REGION'S OUTPUT after the run is `regionOut`. -/
theorem final (c : Dev nD) : (dats m 0 c).arrAt 8 cfg0.N = regionOut m c :=
  (dats m 0 c).arrAt_eq_of_cover 8 (regionOut m c) (fun t _ => flushed_eq m c t) (cover)

/-! ## The host operations after the region, and the result -/

set_option maxHeartbeats 4000000 in
/-- @main's result after the whole run: the region's output column, flattened, its first 1,000,000 rows. -/
theorem tail_eq (c : Dev nD) :
    (Pipeline.afterTail₀ cfgs (dats m) 0 (V0 m) [hostOps1] c main_v63 : S1000000.Idx → EReal) = Tail.tail (F := Ideal) (regionOut m c) := by
  unfold Pipeline.afterTail₀
  show StableHlo.after hostOps1 _ (Proc.devRef .tc main_v63) = _
  after_results
  rw [(Pipeline.withArrays_arr spec0 launch0.win.arr_inj c _ _ 8).trans (final m c)]
  rfl

/-- THE KERNEL'S RESULT is the specification of the argument arrays: at row `r < 1,000,000` the padded arrays are the
    arguments, and the fused network's energy is the selected species' read-out (the block-diagonal law). -/
theorem result_eq (c : Dev nD) :
    (Pipeline.afterTail₀ cfgs (dats m) 0 (V0 m) [hostOps1] c main_v63 : S1000000.Idx → EReal)
      = Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [tail_eq]
  funext i
  obtain ⟨r, rfl⟩ : ∃ r : Fin 1000000, i = ix1 r := ⟨i 0, eq_ix1 i⟩
  rw [Tail.tail_apply]
  unfold regionOut Spec.G
  have hr : r.val < 1000000 := r.isLt
  rw [Fused.energy_eq (Operands.isFused_of _ _ _ _ _ _ (Operands.w2diag_apply _) (Operands.w3diag_apply _))]
  refine congrArg₂ (fun sp xr => Spec.pick sp (Spec.energy xr _ _ _ _ _ _)) ?_ (funext fun f => ?_)
  · exact Operands.sppad_apply _ _ hr
  · exact Operands.xpad_apply _ _ hr f

/-- THE RUN, READ: every weakly fair execution of the idealized kernel terminates with its result array at the
    specification of its argument arrays, and the argument arrays unchanged. -/
theorem run : θ_run defs (onTc (τ := τ) (main (F := Ideal))) ⟨m, fun _ => 0, ρ⟩ (fun r => ∀ c : Dev nD,
      r.2.mem ((c.tc : Thread nD τ).loc main_v63)
        = Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v63 (Pipeline.mem_restRefs_of main_v63 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue

end
-- ==== Proof.lean ====
/-
  The claim: a per-species energy model evaluated by one fused kernel equals its reference, over the extended reals.

  An atom has 128 features and a species word; each of four species has its own small network (two `tanh` layers of
  64 units and a scalar read-out), and the atom's energy is the read-out of the network its species word names, zero if
  the word names none. The reference evaluates all four networks on every atom and keeps the named one by a chain of
  selections. The kernel lays the four networks side by side — the first layer's weights next to one another, the
  second and third layers' weights as block-diagonal matrices — evaluates the fused network of width 256 on blocks of
  4,096 atoms, and reads the energy out of the four columns with a one-hot product; rows padded to a whole number of
  blocks are dropped at the end.

  The two agree exactly, on every extended real input: a block-diagonal matrix contributes, to a unit of species `s`,
  only species `s`'s 64 products (the other 192 have a zero factor, and `x · 0 = 0`, `x + 0 = x`), and the one-hot
  product keeps the named column (`x · 1 = x`) — Proof/Fused.lean. The kernel's run is read in Proof/KValue.lean over
  Proof/Payload.lean (the body's arithmetic at a row), Proof/KOperands.lean, Proof/KOperandsAt.lean and
  Proof/BlockDiag.lean (the launched arrays, entry by entry) and Proof/KTail.lean; the reference's in
  Proof/RefIsSpec.lean; the common value is Proof/Spec.lean's `G`. No rewrite was applied to the kernel when it was
  idealized, so that conjunct is trivial, and the precondition is never opened.
-/
import proofs.«120765_j59296318489074_2_alg».proof.Defs
import proofs.«120765_j59296318489074_2_alg».proof.Proof.Gen.Kernel
import proofs.«120765_j59296318489074_2_alg».proof.Proof.Gen.Kernel.Skeleton
import proofs.«120765_j59296318489074_2_alg».proof.Proof.Gen.Kernel.Launch
import proofs.«120765_j59296318489074_2_alg».proof.Proof.Gen.Kernel.Points
import proofs.«120765_j59296318489074_2_alg».proof.Proof.Gen.Kernel.Frame
import proofs.«120765_j59296318489074_2_alg».proof.Proof.Gen.KernelIdeal
import proofs.«120765_j59296318489074_2_alg».proof.Proof.Gen.KernelIdeal.Skeleton
import proofs.«120765_j59296318489074_2_alg».proof.Proof.Gen.KernelIdeal.Launch
import proofs.«120765_j59296318489074_2_alg».proof.Proof.Gen.KernelIdeal.Points
import proofs.«120765_j59296318489074_2_alg».proof.Proof.Gen.KernelIdeal.Frame
import proofs.«120765_j59296318489074_2_alg».proof.Proof.Gen.ReferenceIdeal
import proofs.«120765_j59296318489074_2_alg».proof.Proof.Gen.Pre_finite_inputs
import proofs.«120765_j59296318489074_2_alg».proof.Proof.Gen.ReferenceIdeal.Run
import proofs.«120765_j59296318489074_2_alg».proof.Proof.Gen.ReferenceIdeal.Read
import proofs.«120765_j59296318489074_2_alg».proof.Proof.RefIsSpec
import proofs.«120765_j59296318489074_2_alg».proof.Proof.KValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the idealized reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the eight arguments both idealized programs end with the specification's array `G` of
    those arguments as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v120_eq, Cert.ReferenceIdeal.RefValue.ref_eq_spec, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
